-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S10000x64 : Shape := ⟨2, ![10000, 64]⟩
abbrev S2000x128 : Shape := ⟨2, ![2000, 128]⟩
abbrev S2000x64 : Shape := ⟨2, ![2000, 64]⟩
abbrev S10000x16 : Shape := ⟨2, ![10000, 16]⟩
abbrev S200x10000 : Shape := ⟨2, ![200, 10000]⟩
abbrev S400x16 : Shape := ⟨2, ![400, 16]⟩
abbrev S200x64 : Shape := ⟨2, ![200, 64]⟩
abbrev S200x16 : Shape := ⟨2, ![200, 16]⟩
abbrev S400x10000 : Shape := ⟨2, ![400, 10000]⟩

abbrev nBuf : Space → Nat
  | .hbm => 8
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x64, .f32⟩
  | .hbm, ⟨5, _⟩ => ⟨S10000x16, .f32⟩
  | .hbm, ⟨6, _⟩ => ⟨S10000x16, .f32⟩
  | .hbm, ⟨7, _⟩ => ⟨S10000x10000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S10000x64, .f32⟩
  | .local _ .vmem, ⟨10, _⟩ => ⟨S64x16, .f32⟩
  | .local _ .vmem, ⟨11, _⟩ => ⟨S400x16, .f32⟩
  | .local _ .vmem, ⟨12, _⟩ => ⟨S400x16, .f32⟩
  | .local _ .vmem, ⟨13, _⟩ => ⟨S200x10000, .f32⟩
  | .local _ .vmem, ⟨14, _⟩ => ⟨S200x10000, .f32⟩
  | .local _ .vmem, ⟨15, _⟩ => ⟨S200x10000, .f32⟩
  | .local _ .vmem, ⟨16, _⟩ => ⟨S200x10000, .f32⟩
  | .local _ .vmem, ⟨17, _⟩ => ⟨S10000x16, .f32⟩
  | .local _ .vmem, ⟨18, _⟩ => ⟨S400x16, .f32⟩
  | .local _ .vmem, ⟨19, _⟩ => ⟨S400x16, .f32⟩
  | .local _ .vmem, ⟨20, _⟩ => ⟨S400x16, .f32⟩
  | .local _ .vmem, ⟨21, _⟩ => ⟨S400x16, .f32⟩
  | .local _ .vmem, ⟨22, _⟩ => ⟨S10000x16, .f32⟩
  | .local _ .vmem, ⟨23, _⟩ => ⟨S400x10000, .f32⟩
  | .local _ .vmem, ⟨24, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S200x10000_S200x10000_0_0 : ∀ a, (![0, 0] : Fin 2 → Nat) a + S200x10000.size a ≤ S200x10000.size a
  h_S200x10000 : 0 < S200x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S400x16_S200x16_0_0 : ∀ a, (![0, 0] : Fin 2 → Nat) a + S200x16.size a ≤ S400x16.size a
  h_S200x16 : 0 < S200x16.numel
  inb_S400x16_S200x16_200_0 : ∀ a, (![200, 0] : Fin 2 → Nat) a + S200x16.size a ≤ S400x16.size a
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  inb_S400x10000_S400x10000_0_0 : ∀ a, (![0, 0] : Fin 2 → Nat) a + S400x10000.size a ≤ S400x10000.size a
  h_S400x10000 : 0 < S400x10000.numel
  dot_S2000x128_S128x64_S2000x64_1_0_0_1_n_n_wf : DotDims.WF S2000x128 S128x64 S2000x64 [1] [0] [0] [1] [] []
  dot_S200x10000_S10000x64_S200x64_1_0_0_1_n_n_wf : DotDims.WF S200x10000 S10000x64 S200x64 [1] [0] [0] [1] [] []
  dot_S200x64_S64x16_S200x16_1_0_0_1_n_n_wf : DotDims.WF S200x64 S64x16 S200x16 [1] [0] [0] [1] [] []
  dot_S200x10000_S10000x16_S200x16_1_0_0_1_n_n_wf : DotDims.WF S200x10000 S10000x16 S200x16 [1] [0] [0] [1] [] []
  dot_S400x16_S10000x16_S400x10000_1_1_0_0_n_n_wf : DotDims.WF S400x16 S10000x16 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S10000x64.size a
  hwx1_2 : ∀ i : grid1.Coords, EltTy.bits .f32 = 32 ∨ (Rect.block (s := S10000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S10000x16.size a
  hwx2_2 : ∀ i : grid2.Coords, EltTy.bits .f32 = 32 ∨ (Rect.block (s := S10000x16) S10000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S10000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S10000x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S10000x64 : Shape := ⟨2, ![10000, 64]⟩
abbrev S_ : Shape := ⟨0, ![]⟩
abbrev S10000x16 : Shape := ⟨2, ![10000, 16]⟩
abbrev S16x10000 : Shape := ⟨2, ![16, 10000]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S16x10000, .f32⟩
  | .hbm, ⟨15, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S_S10000x16 : S_.BroadcastsInDim S10000x16 (![] : Fin 0 → Fin S10000x16.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.Kernel.Region0.lean ====
/-
  The first stage, x · W1, as a pipeline of five points: point t fetches rows 2000·t … 2000·t+1999 of x and the
  whole of W1, multiplies them, and writes the 2000 × 64 product back as the same rows of the stage's result.
  This module says what one point leaves in its output buffer (one store covering the whole block, whose value is
  the body's product of the two input blocks), runs the body once on arbitrary staging buffers, and states the
  per-point obligation the pipeline asks: every input buffer holds its block of the array as the stage found it,
  fetched at this point or kept from an earlier one, and the output buffer ends at that product.
-/
import proofs.«133263_g52742198395357_cont_9to1_m_1401_6_alg».proof.Proof.Gen.Kernel.Launch
import proofs.«133263_g52742198395357_cont_9to1_m_1401_6_alg».proof.Proof.Gen.Kernel.Skeleton
import proofs.«133263_g52742198395357_cont_9to1_m_1401_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input buffer holds its block at every point: a fetch puts it there, and with no fetch the block index has
    not moved since the point before, whose block the body left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 2000 × 128 block of x, the whole of W1, the whole 2000 × 64 output block. -/
abbrev rx0 : Rect S2000x128 := Rect.unit (s := S2000x128) ![0, 0] S2000x128.size inb_S2000x128_S2000x128_0_0
abbrev rw0 : Rect S128x64 := Rect.unit (s := S128x64) ![0, 0] S128x64.size inb_S128x64_S128x64_0_0
abbrev ro0 : Rect S2000x64 := Rect.unit (s := S2000x64) ![0, 0] S2000x64.size inb_S2000x64_S2000x64_0_0

/-- What the body leaves in the output buffer: its one store, over the whole block, of the product of the blocks. -/
def out0_2 (x0 : Vec F S2000x128 .f32) (x1 : Vec F S128x64 .f32) : Vec F S2000x64 .f32 :=
  View.canon [⟨ro0, k0_pay1 (View.ld x0 rx0) (View.ld x1 rw0)⟩]

/-- That store covers the block. -/
theorem cover0_2 (p0 : Vec F S2000x64 .f32) (y : S2000x64.Idx) :
    ∃ pc ∈ ([⟨ro0, p0⟩] : List (View.Piece (Elt F) S2000x64 .f32)), y ∈ pc.1.set :=
  View.cover_of_tiled [⟨ro0, p0⟩] S2000x64.size (by rfl) y

set_option maxHeartbeats 1000000 in
/-- One run of the body on whole staging buffers: the inputs' contents are read and left as they were, and the
    output's, whatever it held, ends at the product. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xw1_body i arg1 harg1 arg2 harg2 arg3 harg3) K := by
  simp only [cc0__xw1_body_eq_skeleton]; unfold cc0__xw1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The stage's proof data: its arrays as found; after the body at point t each input buffer still at its block and
    the output buffer at the product of the two blocks; nothing else held, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.Kernel.Bound0.lean ====
/-
  Entering and leaving the first stage's pipeline, on the arrays' side. The stage has three windows on three distinct
  arrays: x and W1 are read, the stage's result is written. At entry the core's unscoped buffers, each held whole,
  are sorted into the pipeline's arrays and the buffers it has no window on; at exit the inputs are found as they
  were, the result at what the write-backs left, and all rejoin the buffers the stage never touched.
-/
import proofs.«133263_g52742198395357_cont_9to1_m_1401_6_alg».proof.Proof.Kernel.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_arg2) ↦{fullShare} X main_arg2) ∗ (((c : Thread nD τ).loc main_v0) ↦{fullShare} X main_v0)) := by
  unfold Pipeline.arrBufs
  exact bigSep_eq_bigSepL_of_eq [main_arg0, main_arg2, main_v0] (by decide) (by decide) _

/-- The pipeline's arrays, window by window, each at the share its window holds. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare} G 0) ∗ (((c : Thread nD τ).loc main_arg2) ↦{fullShare} G 1) ∗ (((c : Thread nD τ).loc main_v0) ↦{fullShare} G 2)) := by
  unfold Dat.arrays
  rw [bigSep_W0, (arr_whole0 0).set_eq_univ, (arr_whole0 1).set_eq_univ, (arr_whole0 2).set_eq_univ]
  rfl

/-- ENTRY. The core's unscoped buffers at the contents the stage finds are the pipeline's arrays at those contents,
    an array read through two windows split between them by halves of its share, and the buffers the stage has no
    window on. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec0 c (V c) ∗ Pipeline.unscopedRest (Ix := Unit) (Name := ℕ) (U := UR sig nD τ) (Lvl := ℕ) spec0 c (V c)) :=
    Pipeline.unscopedBufs_split₀ cfgs 0 winFacts0.arr_unscoped c (V c)
  rw [h0, arrBufs0_eq, arrays0_eq]
  iintro ⟨⟨H_main_arg0, H_main_arg2, H_main_v0⟩, Hrest⟩

  isplitr [Hrest]
  · isplitl [H_main_arg0]; · iexact H_main_arg0
    isplitl [H_main_arg2]; · iexact H_main_arg2
    iexact H_main_v0
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit0 (c : Dev nD) (V' : (b : Ref sig .tc) → Buf (Elt F) ((c : Thread nD τ).loc b))
    (hout : V' main_v0 = (dat0 V c).arrAt 2 cfg0.N) (hrest : ∀ b, b ≠ main_v0 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec0 c V' ∗ Pipeline.unscopedRest (Ix := Unit) (Name := ℕ) (U := UR sig nD τ) (Lvl := ℕ) spec0 c V') :=
    Pipeline.unscopedBufs_split₀ cfgs 0 winFacts0.arr_unscoped c V'
  have hr : (Pipeline.unscopedRest (Ix := Unit) (Name := ℕ) (U := UR sig nD τ) (Lvl := ℕ) spec0 c V' : sProp 𝕄) = Pipeline.unscopedRest (Ix := Unit) (Name := ℕ) (U := UR sig nD τ) (Lvl := ℕ) spec0 c (V c) := by
    unfold Pipeline.unscopedRest
    exact bigSep_congr fun b hb => by
      rw [hrest b fun e => (Finset.mem_sdiff.mp hb).2 (Finset.mem_image.mpr ⟨2, Finset.mem_univ _, e.symm⟩)]
  rw [h0, hr, arrBufs0_eq, arrays0_eq, hout, hrest main_arg0 (by decide), hrest main_arg2 (by decide)]
  beta_reduce
  rw [(dat0 V c).arrAt_in 0 rfl, (dat0 V c).arrAt_in 1 rfl]
  iintro ⟨⟨Hw0, Hw1, Hw2⟩, Hrest⟩
  isplitr [Hrest]
  · isplitl [Hw0]; · iexact Hw0
    isplitl [Hw1]; · iexact Hw1
    iexact Hw2
  iexact Hrest

end Region

end Cert.Kernel.Hand

end
-- ==== Proof.Kernel.Region1.lean ====
/-
  The second stage, relu(adj · s1) · W2, as a pipeline of 25 points: point t fetches two strips of 200 rows of adj
  (rows 400·t … 400·t+199 and 400·t+200 … 400·t+399, through two windows on the one array), and has the whole of
  s1 and of W2; for each strip it forms the 200 × 64 product with s1, clamps it below at zero, multiplies by W2,
  and stores the 200 × 16 result as the upper or lower half of its 400 × 16 output block, which is written back
  as rows 400·t … 400·t+399 of the stage's result. This module says what one point leaves in its output buffer
  (two stores that tile the block), runs the body once on arbitrary staging buffers, and states the per-point
  obligation: each input buffer holds its block of the array as the stage found it.
  The two windows on adj each hold half of the share of that array.
-/
import proofs.«133263_g52742198395357_cont_9to1_m_1401_6_alg».proof.Proof.Gen.Kernel.Launch
import proofs.«133263_g52742198395357_cont_9to1_m_1401_6_alg».proof.Proof.Gen.Kernel.Skeleton
import proofs.«133263_g52742198395357_cont_9to1_m_1401_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input buffer holds its block at every point: a fetch puts it there, and with no fetch the block index has
    not moved since the point before, whose block the body left in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through. -/
abbrev rA1 : Rect S200x10000 := Rect.unit (s := S200x10000) ![0, 0] S200x10000.size inb_S200x10000_S200x10000_0_0
abbrev rS1 : Rect S10000x64 := Rect.unit (s := S10000x64) ![0, 0] S10000x64.size inb_S10000x64_S10000x64_0_0
abbrev rW1 : Rect S64x16 := Rect.unit (s := S64x16) ![0, 0] S64x16.size inb_S64x16_S64x16_0_0
abbrev rLo1 : Rect S400x16 := Rect.unit (s := S400x16) ![0, 0] S200x16.size inb_S400x16_S200x16_0_0
abbrev rHi1 : Rect S400x16 := Rect.unit (s := S400x16) ![200, 0] S200x16.size inb_S400x16_S200x16_200_0

/-- What the body leaves in the output buffer: its stores, the last one first, each the body's value of the input blocks. -/
def out1_4 (x0 : Vec F S200x10000 .f32) (x1 : Vec F S200x10000 .f32) (x2 : Vec F S10000x64 .f32) (x3 : Vec F S64x16 .f32) : Vec F S400x16 .f32 :=
  View.canon [⟨rHi1, k1_pay2 (View.ld x1 rA1) (View.ld x2 rS1) (View.ld x3 rW1)⟩, ⟨rLo1, k1_pay1 (View.ld x0 rA1) (View.ld x2 rS1) (View.ld x3 rW1)⟩]

/-- The stores tile the output block, so they cover it. -/
theorem cover1_4 (p0 : Vec F S200x16 .f32) (p1 : Vec F S200x16 .f32) (y : S400x16.Idx) :
    ∃ pc ∈ ([⟨rHi1, p0⟩, ⟨rLo1, p1⟩] : List (View.Piece (Elt F) S400x16 .f32)), y ∈ pc.1.set :=
  View.cover_of_tiled [⟨rHi1, p0⟩, ⟨rLo1, p1⟩] S200x16.size (by rfl) y

set_option maxHeartbeats 1000000 in
/-- One run of the body on whole staging buffers: the inputs' contents are read and left as they were, and the
    output's, whatever it held, ends at what the stores wrote. -/
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S400x16 .f32) (harg5 : arg5.IsWhole)
    (x0 : Vec F S200x10000 .f32) (x1 : Vec F S200x10000 .f32) (x2 : Vec F S10000x64 .f32) (x3 : Vec F S64x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__pass1_body i arg1 harg1 arg2 harg2 arg3 harg3 arg4 harg4 arg5 harg5) K := by
  simp only [cc1__pass1_body_eq_skeleton]; unfold cc1__pass1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _)

/-- The stage's proof data: its arrays as found; after the body at point t each input buffer still at its block and
    the output buffer at what the stores wrote of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.Kernel.Bound1.lean ====
/-
  Entering and leaving the second stage's pipeline, on the arrays' side. The stage has five windows on four arrays:
  two input windows read the one array adj, the others read s1 and W2 and write the stage's result. At entry the
  core's unscoped buffers, each held whole, are sorted into the pipeline's arrays: adj's points-to is split into its
  two half shares, one per window on it, and every other array goes to its window whole. At exit the two halves of
  adj, which the pipeline only read, are joined back, the result array is found at what the write-backs left, and
  all of them rejoin the buffers the stage never touched.
-/
import proofs.«133263_g52742198395357_cont_9to1_m_1401_6_alg».proof.Proof.Kernel.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_v0) ↦{fullShare} X main_v0) ∗ (((c : Thread nD τ).loc main_arg3) ↦{fullShare} X main_arg3) ∗ (((c : Thread nD τ).loc main_v1) ↦{fullShare} X main_v1)) := by
  unfold Pipeline.arrBufs
  exact bigSep_eq_bigSepL_of_eq [main_arg1, main_v0, main_arg3, main_v1] (by decide) (by decide) _

/-- The pipeline's arrays, window by window, each at the share its window holds. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1) ∗ (((c : Thread nD τ).loc main_v0) ↦{fullShare} G 2) ∗ (((c : Thread nD τ).loc main_arg3) ↦{fullShare} G 3) ∗ (((c : Thread nD τ).loc main_v1) ↦{fullShare} G 4)) := by
  unfold Dat.arrays
  rw [bigSep_W1, (arr_whole1 0).set_eq_univ, (arr_whole1 2).set_eq_univ, (arr_whole1 3).set_eq_univ, (arr_whole1 4).set_eq_univ]
  rfl

/-- ENTRY. The core's unscoped buffers at the contents the stage finds are the pipeline's arrays at those contents,
    an array read through two windows split between them by halves of its share, and the buffers the stage has no
    window on. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec1 c (V c) ∗ Pipeline.unscopedRest (Ix := Unit) (Name := ℕ) (U := UR sig nD τ) (Lvl := ℕ) spec1 c (V c)) :=
    Pipeline.unscopedBufs_split₀ cfgs 1 winFacts₀1.arr_unscoped c (V c)
  rw [h0, arrBufs1_eq, arrays1_eq]
  iintro ⟨⟨H_main_arg1, H_main_v0, H_main_arg3, H_main_v1⟩, Hrest⟩
  ihave Hh := (pointsTo_share (PosShare.mem_left_op_right fullShare)).1 $$ H_main_arg1
  icases Hh with ⟨H_main_arg1_l, H_main_arg1_r⟩
  isplitr [Hrest]
  · isplitl [H_main_arg1_l]; · iexact H_main_arg1_l
    isplitl [H_main_arg1_r]; · iexact H_main_arg1_r
    isplitl [H_main_v0]; · iexact H_main_v0
    isplitl [H_main_arg3]; · iexact H_main_arg3
    iexact H_main_v1
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit1 (c : Dev nD) (V' : (b : Ref sig .tc) → Buf (Elt F) ((c : Thread nD τ).loc b))
    (hout : V' main_v1 = (dat1 V c).arrAt 4 cfg1.N) (hrest : ∀ b, b ≠ main_v1 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V' ∗ Pipeline.unscopedRest (Ix := Unit) (Name := ℕ) (U := UR sig nD τ) (Lvl := ℕ) spec1 c V') :=
    Pipeline.unscopedBufs_split₀ cfgs 1 winFacts₀1.arr_unscoped c V'
  have hr : (Pipeline.unscopedRest (Ix := Unit) (Name := ℕ) (U := UR sig nD τ) (Lvl := ℕ) spec1 c V' : sProp 𝕄) = Pipeline.unscopedRest (Ix := Unit) (Name := ℕ) (U := UR sig nD τ) (Lvl := ℕ) spec1 c (V c) := by
    unfold Pipeline.unscopedRest
    exact bigSep_congr fun b hb => by
      rw [hrest b fun e => (Finset.mem_sdiff.mp hb).2 (Finset.mem_image.mpr ⟨4, Finset.mem_univ _, e.symm⟩)]
  rw [h0, hr, arrBufs1_eq, arrays1_eq, hout, hrest main_arg1 (by decide), hrest main_v0 (by decide), hrest main_arg3 (by decide)]
  beta_reduce
  rw [(dat1 V c).arrAt_in 0 rfl, (dat1 V c).arrAt_in 1 rfl, (dat1 V c).arrAt_in 2 rfl, (dat1 V c).arrAt_in 3 rfl]
  iintro ⟨⟨Hw0, Hw1, Hw2, Hw3, Hw4⟩, Hrest⟩
  isplitr [Hrest]
  · isplitl [Hw0 Hw1]
    · iapply (pointsTo_share (PosShare.mem_left_op_right fullShare)).2
      isplitl [Hw0]; · iexact Hw0
      iexact Hw1
    isplitl [Hw2]; · iexact Hw2
    isplitl [Hw3]; · iexact Hw3
    iexact Hw4
  iexact Hrest

end Region

end Cert.Kernel.Hand

end
-- ==== Proof.Kernel.Region2.lean ====
/-
  The third stage, relu(adj · s2), as a pipeline of 25 points: point t fetches two strips of 200 rows of adj (rows
  400·t … 400·t+199 and 400·t+200 … 400·t+399, through two windows on the one array) and has the whole of s2; for
  each strip it forms the 200 × 16 product with s2, clamps it below at zero, and stores it as the upper or lower
  half of its 400 × 16 output block, written back as rows 400·t … 400·t+399 of the stage's result z. This module
  says what one point leaves in its output buffer (two stores that tile the block), runs the body once on
  arbitrary staging buffers, and states the per-point obligation: each input buffer holds its block of the array
  as the stage found it. The two windows on adj each hold half of the share of that array.
-/
import proofs.«133263_g52742198395357_cont_9to1_m_1401_6_alg».proof.Proof.Gen.Kernel.Launch
import proofs.«133263_g52742198395357_cont_9to1_m_1401_6_alg».proof.Proof.Gen.Kernel.Skeleton
import proofs.«133263_g52742198395357_cont_9to1_m_1401_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input buffer holds its block at every point: a fetch puts it there, and with no fetch the block index has
    not moved since the point before, whose block the body left in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through. -/
abbrev rA2 : Rect S200x10000 := Rect.unit (s := S200x10000) ![0, 0] S200x10000.size inb_S200x10000_S200x10000_0_0
abbrev rS2 : Rect S10000x16 := Rect.unit (s := S10000x16) ![0, 0] S10000x16.size inb_S10000x16_S10000x16_0_0
abbrev rLo2 : Rect S400x16 := Rect.unit (s := S400x16) ![0, 0] S200x16.size inb_S400x16_S200x16_0_0
abbrev rHi2 : Rect S400x16 := Rect.unit (s := S400x16) ![200, 0] S200x16.size inb_S400x16_S200x16_200_0

/-- What the body leaves in the output buffer: its stores, the last one first, each the body's value of the input blocks. -/
def out2_3 (x0 : Vec F S200x10000 .f32) (x1 : Vec F S200x10000 .f32) (x2 : Vec F S10000x16 .f32) : Vec F S400x16 .f32 :=
  View.canon [⟨rHi2, k2_pay2 (View.ld x1 rA2) (View.ld x2 rS2)⟩, ⟨rLo2, k2_pay1 (View.ld x0 rA2) (View.ld x2 rS2)⟩]

/-- The stores tile the output block, so they cover it. -/
theorem cover2_3 (p0 : Vec F S200x16 .f32) (p1 : Vec F S200x16 .f32) (y : S400x16.Idx) :
    ∃ pc ∈ ([⟨rHi2, p0⟩, ⟨rLo2, p1⟩] : List (View.Piece (Elt F) S400x16 .f32)), y ∈ pc.1.set :=
  View.cover_of_tiled [⟨rHi2, p0⟩, ⟨rLo2, p1⟩] S200x16.size (by rfl) y

set_option maxHeartbeats 1000000 in
/-- One run of the body on whole staging buffers: the inputs' contents are read and left as they were, and the
    output's, whatever it held, ends at what the stores wrote. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole)
    (x0 : Vec F S200x10000 .f32) (x1 : Vec F S200x10000 .f32) (x2 : Vec F S10000x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pass2_body i arg1 harg1 arg2 harg2 arg3 harg3 arg4 harg4) K := by
  simp only [cc2__pass2_body_eq_skeleton]; unfold cc2__pass2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _ _)

/-- The stage's proof data: its arrays as found; after the body at point t each input buffer still at its block and
    the output buffer at what the stores wrote of the input blocks; nothing else held, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is handed at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.Kernel.Bound2.lean ====
/-
  Entering and leaving the third stage's pipeline, on the arrays' side. The stage has four windows on three arrays:
  two input windows read the one array adj, one reads s2, one writes the stage's result z. At entry adj's points-to
  is split into its two half shares, one per window on it, and the other arrays go to their windows whole; at exit
  the two halves of adj are joined back, z is found at what the write-backs left, and all rejoin the buffers the
  stage never touched.
-/
import proofs.«133263_g52742198395357_cont_9to1_m_1401_6_alg».proof.Proof.Kernel.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_arg1) ↦{fullShare} X main_arg1) ∗ (((c : Thread nD τ).loc main_v1) ↦{fullShare} X main_v1) ∗ (((c : Thread nD τ).loc main_v2) ↦{fullShare} X main_v2)) := by
  unfold Pipeline.arrBufs
  exact bigSep_eq_bigSepL_of_eq [main_arg1, main_v1, main_v2] (by decide) (by decide) _

/-- The pipeline's arrays, window by window, each at the share its window holds. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare.left} G 0) ∗ (((c : Thread nD τ).loc main_arg1) ↦{fullShare.right} G 1) ∗ (((c : Thread nD τ).loc main_v1) ↦{fullShare} G 2) ∗ (((c : Thread nD τ).loc main_v2) ↦{fullShare} G 3)) := by
  unfold Dat.arrays
  rw [bigSep_W2, (arr_whole2 0).set_eq_univ, (arr_whole2 2).set_eq_univ, (arr_whole2 3).set_eq_univ]
  rfl

/-- ENTRY. The core's unscoped buffers at the contents the stage finds are the pipeline's arrays at those contents,
    an array read through two windows split between them by halves of its share, and the buffers the stage has no
    window on. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec2 c (V c) ∗ Pipeline.unscopedRest (Ix := Unit) (Name := ℕ) (U := UR sig nD τ) (Lvl := ℕ) spec2 c (V c)) :=
    Pipeline.unscopedBufs_split₀ cfgs 2 winFacts₀2.arr_unscoped c (V c)
  rw [h0, arrBufs2_eq, arrays2_eq]
  iintro ⟨⟨H_main_arg1, H_main_v1, H_main_v2⟩, Hrest⟩
  ihave Hh := (pointsTo_share (PosShare.mem_left_op_right fullShare)).1 $$ H_main_arg1
  icases Hh with ⟨H_main_arg1_l, H_main_arg1_r⟩
  isplitr [Hrest]
  · isplitl [H_main_arg1_l]; · iexact H_main_arg1_l
    isplitl [H_main_arg1_r]; · iexact H_main_arg1_r
    isplitl [H_main_v1]; · iexact H_main_v1
    iexact H_main_v2
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit2 (c : Dev nD) (V' : (b : Ref sig .tc) → Buf (Elt F) ((c : Thread nD τ).loc b))
    (hout : V' main_v2 = (dat2 V c).arrAt 3 cfg2.N) (hrest : ∀ b, b ≠ main_v2 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec2 c V' ∗ Pipeline.unscopedRest (Ix := Unit) (Name := ℕ) (U := UR sig nD τ) (Lvl := ℕ) spec2 c V') :=
    Pipeline.unscopedBufs_split₀ cfgs 2 winFacts₀2.arr_unscoped c V'
  have hr : (Pipeline.unscopedRest (Ix := Unit) (Name := ℕ) (U := UR sig nD τ) (Lvl := ℕ) spec2 c V' : sProp 𝕄) = Pipeline.unscopedRest (Ix := Unit) (Name := ℕ) (U := UR sig nD τ) (Lvl := ℕ) spec2 c (V c) := by
    unfold Pipeline.unscopedRest
    exact bigSep_congr fun b hb => by
      rw [hrest b fun e => (Finset.mem_sdiff.mp hb).2 (Finset.mem_image.mpr ⟨3, Finset.mem_univ _, e.symm⟩)]
  rw [h0, hr, arrBufs2_eq, arrays2_eq, hout, hrest main_arg1 (by decide), hrest main_v1 (by decide)]
  beta_reduce
  rw [(dat2 V c).arrAt_in 0 rfl, (dat2 V c).arrAt_in 1 rfl, (dat2 V c).arrAt_in 2 rfl]
  iintro ⟨⟨Hw0, Hw1, Hw2, Hw3⟩, Hrest⟩
  isplitr [Hrest]
  · isplitl [Hw0 Hw1]
    · iapply (pointsTo_share (PosShare.mem_left_op_right fullShare)).2
      isplitl [Hw0]; · iexact Hw0
      iexact Hw1
    isplitl [Hw2]; · iexact Hw2
    iexact Hw3
  iexact Hrest

end Region

end Cert.Kernel.Hand

end
-- ==== Proof.Kernel.Region3.lean ====
/-
  The last stage, z · zᵀ, as a pipeline of 25 points: point t fetches rows 400·t … 400·t+399 of z through one
  window and has the whole of z through another window on the same array; it contracts the two on their feature
  axis (both operands' second axis) and stores the 400 × 10000 product as its whole output block, written back as
  rows 400·t … 400·t+399 of the result. This module says what one point leaves in its output buffer (one store
  covering the block), runs the body once on arbitrary staging buffers, and states the per-point obligation: each
  input buffer holds its block of z as the stage found it. The two windows on z each hold half of its share.
-/
import proofs.«133263_g52742198395357_cont_9to1_m_1401_6_alg».proof.Proof.Gen.Kernel.Launch
import proofs.«133263_g52742198395357_cont_9to1_m_1401_6_alg».proof.Proof.Gen.Kernel.Skeleton
import proofs.«133263_g52742198395357_cont_9to1_m_1401_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input buffer holds its block at every point: a fetch puts it there, and with no fetch the block index has
    not moved since the point before, whose block the body left in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through. -/
abbrev rZ3 : Rect S400x16 := Rect.unit (s := S400x16) ![0, 0] S400x16.size inb_S400x16_S400x16_0_0
abbrev rZZ3 : Rect S10000x16 := Rect.unit (s := S10000x16) ![0, 0] S10000x16.size inb_S10000x16_S10000x16_0_0
abbrev rO3 : Rect S400x10000 := Rect.unit (s := S400x10000) ![0, 0] S400x10000.size inb_S400x10000_S400x10000_0_0

/-- What the body leaves in the output buffer: its stores, the last one first, each the body's value of the input blocks. -/
def out3_2 (x0 : Vec F S400x16 .f32) (x1 : Vec F S10000x16 .f32) : Vec F S400x10000 .f32 :=
  View.canon [⟨rO3, k3_pay1 (View.ld x0 rZ3) (View.ld x1 rZZ3)⟩]

/-- The stores tile the output block, so they cover it. -/
theorem cover3_2 (p0 : Vec F S400x10000 .f32) (y : S400x10000.Idx) :
    ∃ pc ∈ ([⟨rO3, p0⟩] : List (View.Piece (Elt F) S400x10000 .f32)), y ∈ pc.1.set :=
  View.cover_of_tiled [⟨rO3, p0⟩] S400x10000.size (by rfl) y

set_option maxHeartbeats 1000000 in
/-- One run of the body on whole staging buffers: the inputs' contents are read and left as they were, and the
    output's, whatever it held, ends at what the stores wrote. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__abar_body i arg1 harg1 arg2 harg2 arg3 harg3) K := by
  simp only [cc3__abar_body_eq_skeleton]; unfold cc3__abar_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The stage's proof data: its arrays as found; after the body at point t each input buffer still at its block and
    the output buffer at what the stores wrote of the input blocks; nothing else held, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is handed at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.Kernel.Bound3.lean ====
/-
  Entering and leaving the last stage's pipeline, on the arrays' side. The stage has three windows on two arrays:
  two input windows read the one array z (a block of rows, and the whole), one writes the result. At entry z's
  points-to is split into its two half shares, one per window on it; at exit the halves are joined back, the result
  is found at what the write-backs left, and both rejoin the buffers the stage never touched.
-/
import proofs.«133263_g52742198395357_cont_9to1_m_1401_6_alg».proof.Proof.Kernel.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs3_eq (c : Dev nD) (X : (b : Ref sig .tc) → Buf (Elt F) ((c : Thread nD τ).loc b)) :
    (Pipeline.arrBufs (Ix := Unit) (Name := ℕ) (U := UR sig nD τ) (Lvl := ℕ) spec3 c X : sProp 𝕄)
      = iprop((((c : Thread nD τ).loc main_v2) ↦{fullShare} X main_v2) ∗ (((c : Thread nD τ).loc main_v3) ↦{fullShare} X main_v3)) := by
  unfold Pipeline.arrBufs
  exact bigSep_eq_bigSepL_of_eq [main_v2, main_v3] (by decide) (by decide) _

/-- The pipeline's arrays, window by window, each at the share its window holds. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v2) ↦{fullShare.left} G 0) ∗ (((c : Thread nD τ).loc main_v2) ↦{fullShare.right} G 1) ∗ (((c : Thread nD τ).loc main_v3) ↦{fullShare} G 2)) := by
  unfold Dat.arrays
  rw [bigSep_W3, (arr_whole3 0).set_eq_univ, (arr_whole3 2).set_eq_univ]
  rfl

/-- ENTRY. The core's unscoped buffers at the contents the stage finds are the pipeline's arrays at those contents,
    an array read through two windows split between them by halves of its share, and the buffers the stage has no
    window on. -/
theorem entry3 (c : Dev nD) :
    (unscopedBufs (Ix := Unit) (Name := ℕ) (U := UR sig nD τ) (Lvl := ℕ) c (V c) : sProp 𝕄)
      ⊢ iprop((dat3 V c).arrays ((dat3 V c).arrAt · 0) ∗ Pipeline.unscopedRest (Ix := Unit) (Name := ℕ) (U := UR sig nD τ) (Lvl := ℕ) spec3 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec3 c (V c) ∗ Pipeline.unscopedRest (Ix := Unit) (Name := ℕ) (U := UR sig nD τ) (Lvl := ℕ) spec3 c (V c)) :=
    Pipeline.unscopedBufs_split₀ cfgs 3 winFacts₀3.arr_unscoped c (V c)
  rw [h0, arrBufs3_eq, arrays3_eq]
  iintro ⟨⟨H_main_v2, H_main_v3⟩, Hrest⟩
  ihave Hh := (pointsTo_share (PosShare.mem_left_op_right fullShare)).1 $$ H_main_v2
  icases Hh with ⟨H_main_v2_l, H_main_v2_r⟩
  isplitr [Hrest]
  · isplitl [H_main_v2_l]; · iexact H_main_v2_l
    isplitl [H_main_v2_r]; · iexact H_main_v2_r
    iexact H_main_v3
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit3 (c : Dev nD) (V' : (b : Ref sig .tc) → Buf (Elt F) ((c : Thread nD τ).loc b))
    (hout : V' main_v3 = (dat3 V c).arrAt 2 cfg3.N) (hrest : ∀ b, b ≠ main_v3 → V' b = V c b) :
    iprop((dat3 V c).arrays ((dat3 V c).arrAt · cfg3.N) ∗ Pipeline.unscopedRest (Ix := Unit) (Name := ℕ) (U := UR sig nD τ) (Lvl := ℕ) spec3 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec3 c V' ∗ Pipeline.unscopedRest (Ix := Unit) (Name := ℕ) (U := UR sig nD τ) (Lvl := ℕ) spec3 c V') :=
    Pipeline.unscopedBufs_split₀ cfgs 3 winFacts₀3.arr_unscoped c V'
  have hr : (Pipeline.unscopedRest (Ix := Unit) (Name := ℕ) (U := UR sig nD τ) (Lvl := ℕ) spec3 c V' : sProp 𝕄) = Pipeline.unscopedRest (Ix := Unit) (Name := ℕ) (U := UR sig nD τ) (Lvl := ℕ) spec3 c (V c) := by
    unfold Pipeline.unscopedRest
    exact bigSep_congr fun b hb => by
      rw [hrest b fun e => (Finset.mem_sdiff.mp hb).2 (Finset.mem_image.mpr ⟨2, Finset.mem_univ _, e.symm⟩)]
  rw [h0, hr, arrBufs3_eq, arrays3_eq, hout, hrest main_v2 (by decide)]
  beta_reduce
  rw [(dat3 V c).arrAt_in 0 rfl, (dat3 V c).arrAt_in 1 rfl]
  iintro ⟨⟨Hw0, Hw1, Hw2⟩, Hrest⟩
  isplitr [Hrest]
  · isplitl [Hw0 Hw1]
    · iapply (pointsTo_share (PosShare.mem_left_op_right fullShare)).2
      isplitl [Hw0]; · iexact Hw0
      iexact Hw1
    iexact Hw2
  iexact Hrest

end Region

end Cert.Kernel.Hand

end
-- ==== Proof.Kernel.Run.lean ====
/-
  The whole program as four pipelines run one after the other, at any float instance. Between two stages the core
  holds every unscoped buffer whole: the four arguments as launched, and each stage's result array at what that
  stage's write-backs left, which the next stage then finds as its input. From the launch memory, with all counters
  at zero, every weakly fair execution terminates without a fault, the two results end at the last two stages'
  written-back arrays, and the four arguments end as launched, since no stage has an output window on an argument.
-/
import proofs.«133263_g52742198395357_cont_9to1_m_1401_6_alg».proof.Proof.Kernel.Bound0
import proofs.«133263_g52742198395357_cont_9to1_m_1401_6_alg».proof.Proof.Kernel.Bound1
import proofs.«133263_g52742198395357_cont_9to1_m_1401_6_alg».proof.Proof.Kernel.Bound2
import proofs.«133263_g52742198395357_cont_9to1_m_1401_6_alg».proof.Proof.Kernel.Bound3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stages -/

/-- Core c's buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After stage 0: its result array at what the write-backs leave, every other buffer as before. -/
def W1 (c : Dev nD) : Valuation τ sig (Elt F) := Function.update (W0 m ρ c) main_v0 ((dat0 (V0 m ρ) c).arrAt 2 cfg0.N)
/-- The same read at the TensorCore's references. -/
abbrev V1 : (c : Dev nD) → (b : Ref sig .tc) → Buf (Elt F) ((c : Thread nD τ).loc b) := fun c b => W1 m ρ c b
theorem W1_out (c : Dev nD) : V1 m ρ c main_v0 = (dat0 (V0 m ρ) c).arrAt 2 cfg0.N := by
  show W1 m ρ c (Proc.devRef .tc main_v0) = _
  unfold W1; exact Function.update_self _ _ _
theorem W1_rest (c : Dev nD) (b : Ref sig .tc) (h : b ≠ main_v0) : V1 m ρ c b = V0 m ρ c b := by
  show W1 m ρ c (Proc.devRef .tc b) = W0 m ρ c (Proc.devRef .tc b)
  unfold W1; exact Function.update_of_ne (StableHlo.devRef_ne_of_ne h) _ _

/-- After stage 1: its result array at what the write-backs leave, every other buffer as before. -/
def W2 (c : Dev nD) : Valuation τ sig (Elt F) := Function.update (W1 m ρ c) main_v1 ((dat1 (V1 m ρ) c).arrAt 4 cfg1.N)
/-- The same read at the TensorCore's references. -/
abbrev V2 : (c : Dev nD) → (b : Ref sig .tc) → Buf (Elt F) ((c : Thread nD τ).loc b) := fun c b => W2 m ρ c b
theorem W2_out (c : Dev nD) : V2 m ρ c main_v1 = (dat1 (V1 m ρ) c).arrAt 4 cfg1.N := by
  show W2 m ρ c (Proc.devRef .tc main_v1) = _
  unfold W2; exact Function.update_self _ _ _
theorem W2_rest (c : Dev nD) (b : Ref sig .tc) (h : b ≠ main_v1) : V2 m ρ c b = V1 m ρ c b := by
  show W2 m ρ c (Proc.devRef .tc b) = W1 m ρ c (Proc.devRef .tc b)
  unfold W2; exact Function.update_of_ne (StableHlo.devRef_ne_of_ne h) _ _

/-- After stage 2: its result array at what the write-backs leave, every other buffer as before. -/
def W3 (c : Dev nD) : Valuation τ sig (Elt F) := Function.update (W2 m ρ c) main_v2 ((dat2 (V2 m ρ) c).arrAt 3 cfg2.N)
/-- The same read at the TensorCore's references. -/
abbrev V3 : (c : Dev nD) → (b : Ref sig .tc) → Buf (Elt F) ((c : Thread nD τ).loc b) := fun c b => W3 m ρ c b
theorem W3_out (c : Dev nD) : V3 m ρ c main_v2 = (dat2 (V2 m ρ) c).arrAt 3 cfg2.N := by
  show W3 m ρ c (Proc.devRef .tc main_v2) = _
  unfold W3; exact Function.update_self _ _ _
theorem W3_rest (c : Dev nD) (b : Ref sig .tc) (h : b ≠ main_v2) : V3 m ρ c b = V2 m ρ c b := by
  show W3 m ρ c (Proc.devRef .tc b) = W2 m ρ c (Proc.devRef .tc b)
  unfold W3; exact Function.update_of_ne (StableHlo.devRef_ne_of_ne h) _ _

/-- After stage 3: its result array at what the write-backs leave, every other buffer as before. -/
def W4 (c : Dev nD) : Valuation τ sig (Elt F) := Function.update (W3 m ρ c) main_v3 ((dat3 (V3 m ρ) c).arrAt 2 cfg3.N)
/-- The same read at the TensorCore's references. -/
abbrev V4 : (c : Dev nD) → (b : Ref sig .tc) → Buf (Elt F) ((c : Thread nD τ).loc b) := fun c b => W4 m ρ c b
theorem W4_out (c : Dev nD) : V4 m ρ c main_v3 = (dat3 (V3 m ρ) c).arrAt 2 cfg3.N := by
  show W4 m ρ c (Proc.devRef .tc main_v3) = _
  unfold W4; exact Function.update_self _ _ _
theorem W4_rest (c : Dev nD) (b : Ref sig .tc) (h : b ≠ main_v3) : V4 m ρ c b = V3 m ρ c b := by
  show W4 m ρ c (Proc.devRef .tc b) = W3 m ρ c (Proc.devRef .tc b)
  unfold W4; exact Function.update_of_ne (StableHlo.devRef_ne_of_ne h) _ _

/-! ## The arguments and the results at the end -/

theorem W4_arg (c : Dev nD) (b : Ref sig .tc) (h3 : b ≠ main_v3) (h2 : b ≠ main_v2) (h1 : b ≠ main_v1) (h0 : b ≠ main_v0) :
    W4 m ρ c (Proc.devRef .tc b) = m ((c : Thread nD τ).loc b) :=
  (W4_rest m ρ c b h3).trans <| (W3_rest m ρ c b h2).trans <| (W2_rest m ρ c b h1).trans <| (W1_rest m ρ c b h0).trans rfl
theorem W4_main_v3 (c : Dev nD) : W4 m ρ c (Proc.devRef .tc main_v3) = (dat3 (V3 m ρ) c).arrAt 2 cfg3.N := W4_out m ρ c
theorem W4_main_v2 (c : Dev nD) : W4 m ρ c (Proc.devRef .tc main_v2) = (dat2 (V2 m ρ) c).arrAt 3 cfg2.N :=
  (W4_rest m ρ c main_v2 (by decide)).trans (W3_out m ρ c)

/-! ## The proof data family and the thread state -/

/-- No pipeline has a prefetched table. -/
abbrev adm : (p : Fin 4) → (pcfgs (F := F) p).Adm := fun p => (cfgs p).toPCfg_adm
/-- Each pipeline's proof data at the contents its stage is entered with. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stage: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart: every unscoped buffer at the final contents, the generator register. -/
abbrev Tₙ (c : Dev nD) : sProp 𝕄 := iprop(StableHlo.held (c : Thread nD τ) (Pipeline.ucRefs τ sig) (W4 m ρ c) ∗ ∃ r, prngReg c r)

/-! ## The stages as segments -/

set_option backward.isDefEq.respectTransparency.types false in
/-- Stage 0 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg0 : Pipeline.RegionSeg (pcfgs (F := F)) adm (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V0 m ρ) c (V1 m ρ c) (W1_out m ρ c) (W1_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 1 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := entry1 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m ρ) c (V2 m ρ c) (W2_out m ρ c) (W2_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 2 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := entry2 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (V2 m ρ) c (V3 m ρ c) (W3_out m ρ c) (W3_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 3 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := entry3 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (V3 m ρ) c (V4 m ρ c) (W4_out m ρ c) (W4_rest m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
/-- The program is the run of the four segments. -/
theorem main_run (c : Dev nD) : main (F := F) c = Pipeline.Seg.run (segs m ρ) := (main_chain c).trans (by chain_rfl)

set_option backward.isDefEq.respectTransparency.types false in
/-- THE RUN. From any launch memory with zero counters every weakly fair execution terminates, nothing faults, the
    decoder's result array ends at what the last stage wrote back, z at what the third stage wrote back, and each
    argument as launched. -/
theorem run_out : θ_run defs (onTc (τ := τ) (main (F := F))) ⟨m, fun _ => 0, ρ⟩ (fun r => ∀ c : Dev nD,
      r.2.mem ((c.tc : Thread nD τ).loc main_v3) = (dat3 (V3 m ρ) c).arrAt 2 cfg3.N
      ∧ r.2.mem ((c.tc : Thread nD τ).loc main_v2) = (dat2 (V2 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_v2 (by decide))).trans (W4_main_v2 m ρ c),
       (h c _ (mem_uc main_arg0 (by decide))).trans (W4_arg m ρ c main_arg0 (by decide) (by decide) (by decide) (by decide)),
       (h c _ (mem_uc main_arg1 (by decide))).trans (W4_arg m ρ c main_arg1 (by decide) (by decide) (by decide) (by decide)),
       (h c _ (mem_uc main_arg2 (by decide))).trans (W4_arg m ρ c main_arg2 (by decide) (by decide) (by decide) (by decide)),
       (h c _ (mem_uc main_arg3 (by decide))).trans (W4_arg m ρ c main_arg3 (by decide) (by decide) (by decide) (by decide))⟩)

/-- THE FRAME: the run, keeping only that the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2) (run_out m ρ)

end Cert.Kernel.Hand

end
-- ==== Proof.KernelIdeal.Region0.lean ====
/-
  The first stage, x · W1, as a pipeline of five points: point t fetches rows 2000·t … 2000·t+1999 of x and the
  whole of W1, multiplies them, and writes the 2000 × 64 product back as the same rows of the stage's result.
  This module says what one point leaves in its output buffer (one store covering the whole block, whose value is
  the body's product of the two input blocks), runs the body once on arbitrary staging buffers, and states the
  per-point obligation the pipeline asks: every input buffer holds its block of the array as the stage found it,
  fetched at this point or kept from an earlier one, and the output buffer ends at that product.
-/
import proofs.«133263_g52742198395357_cont_9to1_m_1401_6_alg».proof.Proof.Gen.KernelIdeal.Launch
import proofs.«133263_g52742198395357_cont_9to1_m_1401_6_alg».proof.Proof.Gen.KernelIdeal.Skeleton
import proofs.«133263_g52742198395357_cont_9to1_m_1401_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input buffer holds its block at every point: a fetch puts it there, and with no fetch the block index has
    not moved since the point before, whose block the body left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 2000 × 128 block of x, the whole of W1, the whole 2000 × 64 output block. -/
abbrev rx0 : Rect S2000x128 := Rect.unit (s := S2000x128) ![0, 0] S2000x128.size inb_S2000x128_S2000x128_0_0
abbrev rw0 : Rect S128x64 := Rect.unit (s := S128x64) ![0, 0] S128x64.size inb_S128x64_S128x64_0_0
abbrev ro0 : Rect S2000x64 := Rect.unit (s := S2000x64) ![0, 0] S2000x64.size inb_S2000x64_S2000x64_0_0

/-- What the body leaves in the output buffer: its one store, over the whole block, of the product of the blocks. -/
def out0_2 (x0 : Vec F S2000x128 .f32) (x1 : Vec F S128x64 .f32) : Vec F S2000x64 .f32 :=
  View.canon [⟨ro0, k0_pay1 (View.ld x0 rx0) (View.ld x1 rw0)⟩]

/-- That store covers the block. -/
theorem cover0_2 (p0 : Vec F S2000x64 .f32) (y : S2000x64.Idx) :
    ∃ pc ∈ ([⟨ro0, p0⟩] : List (View.Piece (Elt F) S2000x64 .f32)), y ∈ pc.1.set :=
  View.cover_of_tiled [⟨ro0, p0⟩] S2000x64.size (by rfl) y

set_option maxHeartbeats 1000000 in
/-- One run of the body on whole staging buffers: the inputs' contents are read and left as they were, and the
    output's, whatever it held, ends at the product. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xw1_body i arg1 harg1 arg2 harg2 arg3 harg3) K := by
  simp only [cc0__xw1_body_eq_skeleton]; unfold cc0__xw1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The stage's proof data: its arrays as found; after the body at point t each input buffer still at its block and
    the output buffer at the product of the two blocks; nothing else held, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KernelIdeal.Bound0.lean ====
/-
  Entering and leaving the first stage's pipeline, on the arrays' side. The stage has three windows on three distinct
  arrays: x and W1 are read, the stage's result is written. At entry the core's unscoped buffers, each held whole,
  are sorted into the pipeline's arrays and the buffers it has no window on; at exit the inputs are found as they
  were, the result at what the write-backs left, and all rejoin the buffers the stage never touched.
-/
import proofs.«133263_g52742198395357_cont_9to1_m_1401_6_alg».proof.Proof.KernelIdeal.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_arg2) ↦{fullShare} X main_arg2) ∗ (((c : Thread nD τ).loc main_v0) ↦{fullShare} X main_v0)) := by
  unfold Pipeline.arrBufs
  exact bigSep_eq_bigSepL_of_eq [main_arg0, main_arg2, main_v0] (by decide) (by decide) _

/-- The pipeline's arrays, window by window, each at the share its window holds. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare} G 0) ∗ (((c : Thread nD τ).loc main_arg2) ↦{fullShare} G 1) ∗ (((c : Thread nD τ).loc main_v0) ↦{fullShare} G 2)) := by
  unfold Dat.arrays
  rw [bigSep_W0, (arr_whole0 0).set_eq_univ, (arr_whole0 1).set_eq_univ, (arr_whole0 2).set_eq_univ]
  rfl

/-- ENTRY. The core's unscoped buffers at the contents the stage finds are the pipeline's arrays at those contents,
    an array read through two windows split between them by halves of its share, and the buffers the stage has no
    window on. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec0 c (V c) ∗ Pipeline.unscopedRest (Ix := Unit) (Name := ℕ) (U := UR sig nD τ) (Lvl := ℕ) spec0 c (V c)) :=
    Pipeline.unscopedBufs_split₀ cfgs 0 winFacts0.arr_unscoped c (V c)
  rw [h0, arrBufs0_eq, arrays0_eq]
  iintro ⟨⟨H_main_arg0, H_main_arg2, H_main_v0⟩, Hrest⟩

  isplitr [Hrest]
  · isplitl [H_main_arg0]; · iexact H_main_arg0
    isplitl [H_main_arg2]; · iexact H_main_arg2
    iexact H_main_v0
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit0 (c : Dev nD) (V' : (b : Ref sig .tc) → Buf (Elt F) ((c : Thread nD τ).loc b))
    (hout : V' main_v0 = (dat0 V c).arrAt 2 cfg0.N) (hrest : ∀ b, b ≠ main_v0 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec0 c V' ∗ Pipeline.unscopedRest (Ix := Unit) (Name := ℕ) (U := UR sig nD τ) (Lvl := ℕ) spec0 c V') :=
    Pipeline.unscopedBufs_split₀ cfgs 0 winFacts0.arr_unscoped c V'
  have hr : (Pipeline.unscopedRest (Ix := Unit) (Name := ℕ) (U := UR sig nD τ) (Lvl := ℕ) spec0 c V' : sProp 𝕄) = Pipeline.unscopedRest (Ix := Unit) (Name := ℕ) (U := UR sig nD τ) (Lvl := ℕ) spec0 c (V c) := by
    unfold Pipeline.unscopedRest
    exact bigSep_congr fun b hb => by
      rw [hrest b fun e => (Finset.mem_sdiff.mp hb).2 (Finset.mem_image.mpr ⟨2, Finset.mem_univ _, e.symm⟩)]
  rw [h0, hr, arrBufs0_eq, arrays0_eq, hout, hrest main_arg0 (by decide), hrest main_arg2 (by decide)]
  beta_reduce
  rw [(dat0 V c).arrAt_in 0 rfl, (dat0 V c).arrAt_in 1 rfl]
  iintro ⟨⟨Hw0, Hw1, Hw2⟩, Hrest⟩
  isplitr [Hrest]
  · isplitl [Hw0]; · iexact Hw0
    isplitl [Hw1]; · iexact Hw1
    iexact Hw2
  iexact Hrest

end Region

end Cert.KernelIdeal.Hand

end
-- ==== Proof.KernelIdeal.Region1.lean ====
/-
  The second stage, relu(adj · s1) · W2, as a pipeline of 25 points: point t fetches two strips of 200 rows of adj
  (rows 400·t … 400·t+199 and 400·t+200 … 400·t+399, through two windows on the one array), and has the whole of
  s1 and of W2; for each strip it forms the 200 × 64 product with s1, clamps it below at zero, multiplies by W2,
  and stores the 200 × 16 result as the upper or lower half of its 400 × 16 output block, which is written back
  as rows 400·t … 400·t+399 of the stage's result. This module says what one point leaves in its output buffer
  (two stores that tile the block), runs the body once on arbitrary staging buffers, and states the per-point
  obligation: each input buffer holds its block of the array as the stage found it.
  The two windows on adj each hold half of the share of that array.
-/
import proofs.«133263_g52742198395357_cont_9to1_m_1401_6_alg».proof.Proof.Gen.KernelIdeal.Launch
import proofs.«133263_g52742198395357_cont_9to1_m_1401_6_alg».proof.Proof.Gen.KernelIdeal.Skeleton
import proofs.«133263_g52742198395357_cont_9to1_m_1401_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input buffer holds its block at every point: a fetch puts it there, and with no fetch the block index has
    not moved since the point before, whose block the body left in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through. -/
abbrev rA1 : Rect S200x10000 := Rect.unit (s := S200x10000) ![0, 0] S200x10000.size inb_S200x10000_S200x10000_0_0
abbrev rS1 : Rect S10000x64 := Rect.unit (s := S10000x64) ![0, 0] S10000x64.size inb_S10000x64_S10000x64_0_0
abbrev rW1 : Rect S64x16 := Rect.unit (s := S64x16) ![0, 0] S64x16.size inb_S64x16_S64x16_0_0
abbrev rLo1 : Rect S400x16 := Rect.unit (s := S400x16) ![0, 0] S200x16.size inb_S400x16_S200x16_0_0
abbrev rHi1 : Rect S400x16 := Rect.unit (s := S400x16) ![200, 0] S200x16.size inb_S400x16_S200x16_200_0

/-- What the body leaves in the output buffer: its stores, the last one first, each the body's value of the input blocks. -/
def out1_4 (x0 : Vec F S200x10000 .f32) (x1 : Vec F S200x10000 .f32) (x2 : Vec F S10000x64 .f32) (x3 : Vec F S64x16 .f32) : Vec F S400x16 .f32 :=
  View.canon [⟨rHi1, k1_pay2 (View.ld x1 rA1) (View.ld x2 rS1) (View.ld x3 rW1)⟩, ⟨rLo1, k1_pay1 (View.ld x0 rA1) (View.ld x2 rS1) (View.ld x3 rW1)⟩]

/-- The stores tile the output block, so they cover it. -/
theorem cover1_4 (p0 : Vec F S200x16 .f32) (p1 : Vec F S200x16 .f32) (y : S400x16.Idx) :
    ∃ pc ∈ ([⟨rHi1, p0⟩, ⟨rLo1, p1⟩] : List (View.Piece (Elt F) S400x16 .f32)), y ∈ pc.1.set :=
  View.cover_of_tiled [⟨rHi1, p0⟩, ⟨rLo1, p1⟩] S200x16.size (by rfl) y

set_option maxHeartbeats 1000000 in
/-- One run of the body on whole staging buffers: the inputs' contents are read and left as they were, and the
    output's, whatever it held, ends at what the stores wrote. -/
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S400x16 .f32) (harg5 : arg5.IsWhole)
    (x0 : Vec F S200x10000 .f32) (x1 : Vec F S200x10000 .f32) (x2 : Vec F S10000x64 .f32) (x3 : Vec F S64x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__pass1_body i arg1 harg1 arg2 harg2 arg3 harg3 arg4 harg4 arg5 harg5) K := by
  simp only [cc1__pass1_body_eq_skeleton]; unfold cc1__pass1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _)

/-- The stage's proof data: its arrays as found; after the body at point t each input buffer still at its block and
    the output buffer at what the stores wrote of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KernelIdeal.Bound1.lean ====
/-
  Entering and leaving the second stage's pipeline, on the arrays' side. The stage has five windows on four arrays:
  two input windows read the one array adj, the others read s1 and W2 and write the stage's result. At entry the
  core's unscoped buffers, each held whole, are sorted into the pipeline's arrays: adj's points-to is split into its
  two half shares, one per window on it, and every other array goes to its window whole. At exit the two halves of
  adj, which the pipeline only read, are joined back, the result array is found at what the write-backs left, and
  all of them rejoin the buffers the stage never touched.
-/
import proofs.«133263_g52742198395357_cont_9to1_m_1401_6_alg».proof.Proof.KernelIdeal.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_v0) ↦{fullShare} X main_v0) ∗ (((c : Thread nD τ).loc main_arg3) ↦{fullShare} X main_arg3) ∗ (((c : Thread nD τ).loc main_v1) ↦{fullShare} X main_v1)) := by
  unfold Pipeline.arrBufs
  exact bigSep_eq_bigSepL_of_eq [main_arg1, main_v0, main_arg3, main_v1] (by decide) (by decide) _

/-- The pipeline's arrays, window by window, each at the share its window holds. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1) ∗ (((c : Thread nD τ).loc main_v0) ↦{fullShare} G 2) ∗ (((c : Thread nD τ).loc main_arg3) ↦{fullShare} G 3) ∗ (((c : Thread nD τ).loc main_v1) ↦{fullShare} G 4)) := by
  unfold Dat.arrays
  rw [bigSep_W1, (arr_whole1 0).set_eq_univ, (arr_whole1 2).set_eq_univ, (arr_whole1 3).set_eq_univ, (arr_whole1 4).set_eq_univ]
  rfl

/-- ENTRY. The core's unscoped buffers at the contents the stage finds are the pipeline's arrays at those contents,
    an array read through two windows split between them by halves of its share, and the buffers the stage has no
    window on. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec1 c (V c) ∗ Pipeline.unscopedRest (Ix := Unit) (Name := ℕ) (U := UR sig nD τ) (Lvl := ℕ) spec1 c (V c)) :=
    Pipeline.unscopedBufs_split₀ cfgs 1 winFacts₀1.arr_unscoped c (V c)
  rw [h0, arrBufs1_eq, arrays1_eq]
  iintro ⟨⟨H_main_arg1, H_main_v0, H_main_arg3, H_main_v1⟩, Hrest⟩
  ihave Hh := (pointsTo_share (PosShare.mem_left_op_right fullShare)).1 $$ H_main_arg1
  icases Hh with ⟨H_main_arg1_l, H_main_arg1_r⟩
  isplitr [Hrest]
  · isplitl [H_main_arg1_l]; · iexact H_main_arg1_l
    isplitl [H_main_arg1_r]; · iexact H_main_arg1_r
    isplitl [H_main_v0]; · iexact H_main_v0
    isplitl [H_main_arg3]; · iexact H_main_arg3
    iexact H_main_v1
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit1 (c : Dev nD) (V' : (b : Ref sig .tc) → Buf (Elt F) ((c : Thread nD τ).loc b))
    (hout : V' main_v1 = (dat1 V c).arrAt 4 cfg1.N) (hrest : ∀ b, b ≠ main_v1 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V' ∗ Pipeline.unscopedRest (Ix := Unit) (Name := ℕ) (U := UR sig nD τ) (Lvl := ℕ) spec1 c V') :=
    Pipeline.unscopedBufs_split₀ cfgs 1 winFacts₀1.arr_unscoped c V'
  have hr : (Pipeline.unscopedRest (Ix := Unit) (Name := ℕ) (U := UR sig nD τ) (Lvl := ℕ) spec1 c V' : sProp 𝕄) = Pipeline.unscopedRest (Ix := Unit) (Name := ℕ) (U := UR sig nD τ) (Lvl := ℕ) spec1 c (V c) := by
    unfold Pipeline.unscopedRest
    exact bigSep_congr fun b hb => by
      rw [hrest b fun e => (Finset.mem_sdiff.mp hb).2 (Finset.mem_image.mpr ⟨4, Finset.mem_univ _, e.symm⟩)]
  rw [h0, hr, arrBufs1_eq, arrays1_eq, hout, hrest main_arg1 (by decide), hrest main_v0 (by decide), hrest main_arg3 (by decide)]
  beta_reduce
  rw [(dat1 V c).arrAt_in 0 rfl, (dat1 V c).arrAt_in 1 rfl, (dat1 V c).arrAt_in 2 rfl, (dat1 V c).arrAt_in 3 rfl]
  iintro ⟨⟨Hw0, Hw1, Hw2, Hw3, Hw4⟩, Hrest⟩
  isplitr [Hrest]
  · isplitl [Hw0 Hw1]
    · iapply (pointsTo_share (PosShare.mem_left_op_right fullShare)).2
      isplitl [Hw0]; · iexact Hw0
      iexact Hw1
    isplitl [Hw2]; · iexact Hw2
    isplitl [Hw3]; · iexact Hw3
    iexact Hw4
  iexact Hrest

end Region

end Cert.KernelIdeal.Hand

end
-- ==== Proof.KernelIdeal.Region2.lean ====
/-
  The third stage, relu(adj · s2), as a pipeline of 25 points: point t fetches two strips of 200 rows of adj (rows
  400·t … 400·t+199 and 400·t+200 … 400·t+399, through two windows on the one array) and has the whole of s2; for
  each strip it forms the 200 × 16 product with s2, clamps it below at zero, and stores it as the upper or lower
  half of its 400 × 16 output block, written back as rows 400·t … 400·t+399 of the stage's result z. This module
  says what one point leaves in its output buffer (two stores that tile the block), runs the body once on
  arbitrary staging buffers, and states the per-point obligation: each input buffer holds its block of the array
  as the stage found it. The two windows on adj each hold half of the share of that array.
-/
import proofs.«133263_g52742198395357_cont_9to1_m_1401_6_alg».proof.Proof.Gen.KernelIdeal.Launch
import proofs.«133263_g52742198395357_cont_9to1_m_1401_6_alg».proof.Proof.Gen.KernelIdeal.Skeleton
import proofs.«133263_g52742198395357_cont_9to1_m_1401_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input buffer holds its block at every point: a fetch puts it there, and with no fetch the block index has
    not moved since the point before, whose block the body left in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through. -/
abbrev rA2 : Rect S200x10000 := Rect.unit (s := S200x10000) ![0, 0] S200x10000.size inb_S200x10000_S200x10000_0_0
abbrev rS2 : Rect S10000x16 := Rect.unit (s := S10000x16) ![0, 0] S10000x16.size inb_S10000x16_S10000x16_0_0
abbrev rLo2 : Rect S400x16 := Rect.unit (s := S400x16) ![0, 0] S200x16.size inb_S400x16_S200x16_0_0
abbrev rHi2 : Rect S400x16 := Rect.unit (s := S400x16) ![200, 0] S200x16.size inb_S400x16_S200x16_200_0

/-- What the body leaves in the output buffer: its stores, the last one first, each the body's value of the input blocks. -/
def out2_3 (x0 : Vec F S200x10000 .f32) (x1 : Vec F S200x10000 .f32) (x2 : Vec F S10000x16 .f32) : Vec F S400x16 .f32 :=
  View.canon [⟨rHi2, k2_pay2 (View.ld x1 rA2) (View.ld x2 rS2)⟩, ⟨rLo2, k2_pay1 (View.ld x0 rA2) (View.ld x2 rS2)⟩]

/-- The stores tile the output block, so they cover it. -/
theorem cover2_3 (p0 : Vec F S200x16 .f32) (p1 : Vec F S200x16 .f32) (y : S400x16.Idx) :
    ∃ pc ∈ ([⟨rHi2, p0⟩, ⟨rLo2, p1⟩] : List (View.Piece (Elt F) S400x16 .f32)), y ∈ pc.1.set :=
  View.cover_of_tiled [⟨rHi2, p0⟩, ⟨rLo2, p1⟩] S200x16.size (by rfl) y

set_option maxHeartbeats 1000000 in
/-- One run of the body on whole staging buffers: the inputs' contents are read and left as they were, and the
    output's, whatever it held, ends at what the stores wrote. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole) (arg3 : Memref sig .tc .vmem S10000x16 .f32) (harg3 : arg3.IsWhole) (arg4 : Memref sig .tc .vmem S400x16 .f32) (harg4 : arg4.IsWhole)
    (x0 : Vec F S200x10000 .f32) (x1 : Vec F S200x10000 .f32) (x2 : Vec F S10000x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pass2_body i arg1 harg1 arg2 harg2 arg3 harg3 arg4 harg4) K := by
  simp only [cc2__pass2_body_eq_skeleton]; unfold cc2__pass2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _ _)

/-- The stage's proof data: its arrays as found; after the body at point t each input buffer still at its block and
    the output buffer at what the stores wrote of the input blocks; nothing else held, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is handed at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KernelIdeal.Bound2.lean ====
/-
  Entering and leaving the third stage's pipeline, on the arrays' side. The stage has four windows on three arrays:
  two input windows read the one array adj, one reads s2, one writes the stage's result z. At entry adj's points-to
  is split into its two half shares, one per window on it, and the other arrays go to their windows whole; at exit
  the two halves of adj are joined back, z is found at what the write-backs left, and all rejoin the buffers the
  stage never touched.
-/
import proofs.«133263_g52742198395357_cont_9to1_m_1401_6_alg».proof.Proof.KernelIdeal.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_arg1) ↦{fullShare} X main_arg1) ∗ (((c : Thread nD τ).loc main_v1) ↦{fullShare} X main_v1) ∗ (((c : Thread nD τ).loc main_v2) ↦{fullShare} X main_v2)) := by
  unfold Pipeline.arrBufs
  exact bigSep_eq_bigSepL_of_eq [main_arg1, main_v1, main_v2] (by decide) (by decide) _

/-- The pipeline's arrays, window by window, each at the share its window holds. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare.left} G 0) ∗ (((c : Thread nD τ).loc main_arg1) ↦{fullShare.right} G 1) ∗ (((c : Thread nD τ).loc main_v1) ↦{fullShare} G 2) ∗ (((c : Thread nD τ).loc main_v2) ↦{fullShare} G 3)) := by
  unfold Dat.arrays
  rw [bigSep_W2, (arr_whole2 0).set_eq_univ, (arr_whole2 2).set_eq_univ, (arr_whole2 3).set_eq_univ]
  rfl

/-- ENTRY. The core's unscoped buffers at the contents the stage finds are the pipeline's arrays at those contents,
    an array read through two windows split between them by halves of its share, and the buffers the stage has no
    window on. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec2 c (V c) ∗ Pipeline.unscopedRest (Ix := Unit) (Name := ℕ) (U := UR sig nD τ) (Lvl := ℕ) spec2 c (V c)) :=
    Pipeline.unscopedBufs_split₀ cfgs 2 winFacts₀2.arr_unscoped c (V c)
  rw [h0, arrBufs2_eq, arrays2_eq]
  iintro ⟨⟨H_main_arg1, H_main_v1, H_main_v2⟩, Hrest⟩
  ihave Hh := (pointsTo_share (PosShare.mem_left_op_right fullShare)).1 $$ H_main_arg1
  icases Hh with ⟨H_main_arg1_l, H_main_arg1_r⟩
  isplitr [Hrest]
  · isplitl [H_main_arg1_l]; · iexact H_main_arg1_l
    isplitl [H_main_arg1_r]; · iexact H_main_arg1_r
    isplitl [H_main_v1]; · iexact H_main_v1
    iexact H_main_v2
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit2 (c : Dev nD) (V' : (b : Ref sig .tc) → Buf (Elt F) ((c : Thread nD τ).loc b))
    (hout : V' main_v2 = (dat2 V c).arrAt 3 cfg2.N) (hrest : ∀ b, b ≠ main_v2 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec2 c V' ∗ Pipeline.unscopedRest (Ix := Unit) (Name := ℕ) (U := UR sig nD τ) (Lvl := ℕ) spec2 c V') :=
    Pipeline.unscopedBufs_split₀ cfgs 2 winFacts₀2.arr_unscoped c V'
  have hr : (Pipeline.unscopedRest (Ix := Unit) (Name := ℕ) (U := UR sig nD τ) (Lvl := ℕ) spec2 c V' : sProp 𝕄) = Pipeline.unscopedRest (Ix := Unit) (Name := ℕ) (U := UR sig nD τ) (Lvl := ℕ) spec2 c (V c) := by
    unfold Pipeline.unscopedRest
    exact bigSep_congr fun b hb => by
      rw [hrest b fun e => (Finset.mem_sdiff.mp hb).2 (Finset.mem_image.mpr ⟨3, Finset.mem_univ _, e.symm⟩)]
  rw [h0, hr, arrBufs2_eq, arrays2_eq, hout, hrest main_arg1 (by decide), hrest main_v1 (by decide)]
  beta_reduce
  rw [(dat2 V c).arrAt_in 0 rfl, (dat2 V c).arrAt_in 1 rfl, (dat2 V c).arrAt_in 2 rfl]
  iintro ⟨⟨Hw0, Hw1, Hw2, Hw3⟩, Hrest⟩
  isplitr [Hrest]
  · isplitl [Hw0 Hw1]
    · iapply (pointsTo_share (PosShare.mem_left_op_right fullShare)).2
      isplitl [Hw0]; · iexact Hw0
      iexact Hw1
    isplitl [Hw2]; · iexact Hw2
    iexact Hw3
  iexact Hrest

end Region

end Cert.KernelIdeal.Hand

end
-- ==== Proof.KernelIdeal.Region3.lean ====
/-
  The last stage, z · zᵀ, as a pipeline of 25 points: point t fetches rows 400·t … 400·t+399 of z through one
  window and has the whole of z through another window on the same array; it contracts the two on their feature
  axis (both operands' second axis) and stores the 400 × 10000 product as its whole output block, written back as
  rows 400·t … 400·t+399 of the result. This module says what one point leaves in its output buffer (one store
  covering the block), runs the body once on arbitrary staging buffers, and states the per-point obligation: each
  input buffer holds its block of z as the stage found it. The two windows on z each hold half of its share.
-/
import proofs.«133263_g52742198395357_cont_9to1_m_1401_6_alg».proof.Proof.Gen.KernelIdeal.Launch
import proofs.«133263_g52742198395357_cont_9to1_m_1401_6_alg».proof.Proof.Gen.KernelIdeal.Skeleton
import proofs.«133263_g52742198395357_cont_9to1_m_1401_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block of its array at point t, the array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input buffer holds its block at every point: a fetch puts it there, and with no fetch the block index has
    not moved since the point before, whose block the body left in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through. -/
abbrev rZ3 : Rect S400x16 := Rect.unit (s := S400x16) ![0, 0] S400x16.size inb_S400x16_S400x16_0_0
abbrev rZZ3 : Rect S10000x16 := Rect.unit (s := S10000x16) ![0, 0] S10000x16.size inb_S10000x16_S10000x16_0_0
abbrev rO3 : Rect S400x10000 := Rect.unit (s := S400x10000) ![0, 0] S400x10000.size inb_S400x10000_S400x10000_0_0

/-- What the body leaves in the output buffer: its stores, the last one first, each the body's value of the input blocks. -/
def out3_2 (x0 : Vec F S400x16 .f32) (x1 : Vec F S10000x16 .f32) : Vec F S400x10000 .f32 :=
  View.canon [⟨rO3, k3_pay1 (View.ld x0 rZ3) (View.ld x1 rZZ3)⟩]

/-- The stores tile the output block, so they cover it. -/
theorem cover3_2 (p0 : Vec F S400x10000 .f32) (y : S400x10000.Idx) :
    ∃ pc ∈ ([⟨rO3, p0⟩] : List (View.Piece (Elt F) S400x10000 .f32)), y ∈ pc.1.set :=
  View.cover_of_tiled [⟨rO3, p0⟩] S400x10000.size (by rfl) y

set_option maxHeartbeats 1000000 in
/-- One run of the body on whole staging buffers: the inputs' contents are read and left as they were, and the
    output's, whatever it held, ends at what the stores wrote. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__abar_body i arg1 harg1 arg2 harg2 arg3 harg3) K := by
  simp only [cc3__abar_body_eq_skeleton]; unfold cc3__abar_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The stage's proof data: its arrays as found; after the body at point t each input buffer still at its block and
    the output buffer at what the stores wrote of the input blocks; nothing else held, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is handed at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KernelIdeal.Bound3.lean ====
/-
  Entering and leaving the last stage's pipeline, on the arrays' side. The stage has three windows on two arrays:
  two input windows read the one array z (a block of rows, and the whole), one writes the result. At entry z's
  points-to is split into its two half shares, one per window on it; at exit the halves are joined back, the result
  is found at what the write-backs left, and both rejoin the buffers the stage never touched.
-/
import proofs.«133263_g52742198395357_cont_9to1_m_1401_6_alg».proof.Proof.KernelIdeal.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The distinct buffers behind the stage's windows, one by one. -/
theorem arrBufs3_eq (c : Dev nD) (X : (b : Ref sig .tc) → Buf (Elt F) ((c : Thread nD τ).loc b)) :
    (Pipeline.arrBufs (Ix := Unit) (Name := ℕ) (U := UR sig nD τ) (Lvl := ℕ) spec3 c X : sProp 𝕄)
      = iprop((((c : Thread nD τ).loc main_v2) ↦{fullShare} X main_v2) ∗ (((c : Thread nD τ).loc main_v3) ↦{fullShare} X main_v3)) := by
  unfold Pipeline.arrBufs
  exact bigSep_eq_bigSepL_of_eq [main_v2, main_v3] (by decide) (by decide) _

/-- The pipeline's arrays, window by window, each at the share its window holds. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v2) ↦{fullShare.left} G 0) ∗ (((c : Thread nD τ).loc main_v2) ↦{fullShare.right} G 1) ∗ (((c : Thread nD τ).loc main_v3) ↦{fullShare} G 2)) := by
  unfold Dat.arrays
  rw [bigSep_W3, (arr_whole3 0).set_eq_univ, (arr_whole3 2).set_eq_univ]
  rfl

/-- ENTRY. The core's unscoped buffers at the contents the stage finds are the pipeline's arrays at those contents,
    an array read through two windows split between them by halves of its share, and the buffers the stage has no
    window on. -/
theorem entry3 (c : Dev nD) :
    (unscopedBufs (Ix := Unit) (Name := ℕ) (U := UR sig nD τ) (Lvl := ℕ) c (V c) : sProp 𝕄)
      ⊢ iprop((dat3 V c).arrays ((dat3 V c).arrAt · 0) ∗ Pipeline.unscopedRest (Ix := Unit) (Name := ℕ) (U := UR sig nD τ) (Lvl := ℕ) spec3 c (V c)) := by
  have h0 : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec3 c (V c) ∗ Pipeline.unscopedRest (Ix := Unit) (Name := ℕ) (U := UR sig nD τ) (Lvl := ℕ) spec3 c (V c)) :=
    Pipeline.unscopedBufs_split₀ cfgs 3 winFacts₀3.arr_unscoped c (V c)
  rw [h0, arrBufs3_eq, arrays3_eq]
  iintro ⟨⟨H_main_v2, H_main_v3⟩, Hrest⟩
  ihave Hh := (pointsTo_share (PosShare.mem_left_op_right fullShare)).1 $$ H_main_v2
  icases Hh with ⟨H_main_v2_l, H_main_v2_r⟩
  isplitr [Hrest]
  · isplitl [H_main_v2_l]; · iexact H_main_v2_l
    isplitl [H_main_v2_r]; · iexact H_main_v2_r
    iexact H_main_v3
  iexact Hrest

/-- EXIT. The pipeline's arrays as it leaves them — the inputs as found, the result at what the write-backs left —
    and the buffers it has no window on are the core's unscoped buffers at any contents that hold the result there
    and agree with the entry contents everywhere else: the halves of a shared input join back into the whole. -/
theorem exit3 (c : Dev nD) (V' : (b : Ref sig .tc) → Buf (Elt F) ((c : Thread nD τ).loc b))
    (hout : V' main_v3 = (dat3 V c).arrAt 2 cfg3.N) (hrest : ∀ b, b ≠ main_v3 → V' b = V c b) :
    iprop((dat3 V c).arrays ((dat3 V c).arrAt · cfg3.N) ∗ Pipeline.unscopedRest (Ix := Unit) (Name := ℕ) (U := UR sig nD τ) (Lvl := ℕ) spec3 c (V c))
      ⊢ (unscopedBufs (Ix := Unit) (Name := ℕ) (U := UR sig nD τ) (Lvl := ℕ) c V' : sProp 𝕄) := by
  have h0 : (unscopedBufs (Ix := Unit) (Name := ℕ) (U := UR sig nD τ) (Lvl := ℕ) c V' : sProp 𝕄)
      = iprop(Pipeline.arrBufs (Ix := Unit) (Name := ℕ) (U := UR sig nD τ) (Lvl := ℕ) spec3 c V' ∗ Pipeline.unscopedRest (Ix := Unit) (Name := ℕ) (U := UR sig nD τ) (Lvl := ℕ) spec3 c V') :=
    Pipeline.unscopedBufs_split₀ cfgs 3 winFacts₀3.arr_unscoped c V'
  have hr : (Pipeline.unscopedRest (Ix := Unit) (Name := ℕ) (U := UR sig nD τ) (Lvl := ℕ) spec3 c V' : sProp 𝕄) = Pipeline.unscopedRest (Ix := Unit) (Name := ℕ) (U := UR sig nD τ) (Lvl := ℕ) spec3 c (V c) := by
    unfold Pipeline.unscopedRest
    exact bigSep_congr fun b hb => by
      rw [hrest b fun e => (Finset.mem_sdiff.mp hb).2 (Finset.mem_image.mpr ⟨2, Finset.mem_univ _, e.symm⟩)]
  rw [h0, hr, arrBufs3_eq, arrays3_eq, hout, hrest main_v2 (by decide)]
  beta_reduce
  rw [(dat3 V c).arrAt_in 0 rfl, (dat3 V c).arrAt_in 1 rfl]
  iintro ⟨⟨Hw0, Hw1, Hw2⟩, Hrest⟩
  isplitr [Hrest]
  · isplitl [Hw0 Hw1]
    · iapply (pointsTo_share (PosShare.mem_left_op_right fullShare)).2
      isplitl [Hw0]; · iexact Hw0
      iexact Hw1
    iexact Hw2
  iexact Hrest

end Region

end Cert.KernelIdeal.Hand

end
-- ==== Proof.KernelIdeal.Run.lean ====
/-
  The whole program as four pipelines run one after the other, at any float instance. Between two stages the core
  holds every unscoped buffer whole: the four arguments as launched, and each stage's result array at what that
  stage's write-backs left, which the next stage then finds as its input. From the launch memory, with all counters
  at zero, every weakly fair execution terminates without a fault, the two results end at the last two stages'
  written-back arrays, and the four arguments end as launched, since no stage has an output window on an argument.
-/
import proofs.«133263_g52742198395357_cont_9to1_m_1401_6_alg».proof.Proof.KernelIdeal.Bound0
import proofs.«133263_g52742198395357_cont_9to1_m_1401_6_alg».proof.Proof.KernelIdeal.Bound1
import proofs.«133263_g52742198395357_cont_9to1_m_1401_6_alg».proof.Proof.KernelIdeal.Bound2
import proofs.«133263_g52742198395357_cont_9to1_m_1401_6_alg».proof.Proof.KernelIdeal.Bound3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stages -/

/-- Core c's buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After stage 0: its result array at what the write-backs leave, every other buffer as before. -/
def W1 (c : Dev nD) : Valuation τ sig (Elt F) := Function.update (W0 m ρ c) main_v0 ((dat0 (V0 m ρ) c).arrAt 2 cfg0.N)
/-- The same read at the TensorCore's references. -/
abbrev V1 : (c : Dev nD) → (b : Ref sig .tc) → Buf (Elt F) ((c : Thread nD τ).loc b) := fun c b => W1 m ρ c b
theorem W1_out (c : Dev nD) : V1 m ρ c main_v0 = (dat0 (V0 m ρ) c).arrAt 2 cfg0.N := by
  show W1 m ρ c (Proc.devRef .tc main_v0) = _
  unfold W1; exact Function.update_self _ _ _
theorem W1_rest (c : Dev nD) (b : Ref sig .tc) (h : b ≠ main_v0) : V1 m ρ c b = V0 m ρ c b := by
  show W1 m ρ c (Proc.devRef .tc b) = W0 m ρ c (Proc.devRef .tc b)
  unfold W1; exact Function.update_of_ne (StableHlo.devRef_ne_of_ne h) _ _

/-- After stage 1: its result array at what the write-backs leave, every other buffer as before. -/
def W2 (c : Dev nD) : Valuation τ sig (Elt F) := Function.update (W1 m ρ c) main_v1 ((dat1 (V1 m ρ) c).arrAt 4 cfg1.N)
/-- The same read at the TensorCore's references. -/
abbrev V2 : (c : Dev nD) → (b : Ref sig .tc) → Buf (Elt F) ((c : Thread nD τ).loc b) := fun c b => W2 m ρ c b
theorem W2_out (c : Dev nD) : V2 m ρ c main_v1 = (dat1 (V1 m ρ) c).arrAt 4 cfg1.N := by
  show W2 m ρ c (Proc.devRef .tc main_v1) = _
  unfold W2; exact Function.update_self _ _ _
theorem W2_rest (c : Dev nD) (b : Ref sig .tc) (h : b ≠ main_v1) : V2 m ρ c b = V1 m ρ c b := by
  show W2 m ρ c (Proc.devRef .tc b) = W1 m ρ c (Proc.devRef .tc b)
  unfold W2; exact Function.update_of_ne (StableHlo.devRef_ne_of_ne h) _ _

/-- After stage 2: its result array at what the write-backs leave, every other buffer as before. -/
def W3 (c : Dev nD) : Valuation τ sig (Elt F) := Function.update (W2 m ρ c) main_v2 ((dat2 (V2 m ρ) c).arrAt 3 cfg2.N)
/-- The same read at the TensorCore's references. -/
abbrev V3 : (c : Dev nD) → (b : Ref sig .tc) → Buf (Elt F) ((c : Thread nD τ).loc b) := fun c b => W3 m ρ c b
theorem W3_out (c : Dev nD) : V3 m ρ c main_v2 = (dat2 (V2 m ρ) c).arrAt 3 cfg2.N := by
  show W3 m ρ c (Proc.devRef .tc main_v2) = _
  unfold W3; exact Function.update_self _ _ _
theorem W3_rest (c : Dev nD) (b : Ref sig .tc) (h : b ≠ main_v2) : V3 m ρ c b = V2 m ρ c b := by
  show W3 m ρ c (Proc.devRef .tc b) = W2 m ρ c (Proc.devRef .tc b)
  unfold W3; exact Function.update_of_ne (StableHlo.devRef_ne_of_ne h) _ _

/-- After stage 3: its result array at what the write-backs leave, every other buffer as before. -/
def W4 (c : Dev nD) : Valuation τ sig (Elt F) := Function.update (W3 m ρ c) main_v3 ((dat3 (V3 m ρ) c).arrAt 2 cfg3.N)
/-- The same read at the TensorCore's references. -/
abbrev V4 : (c : Dev nD) → (b : Ref sig .tc) → Buf (Elt F) ((c : Thread nD τ).loc b) := fun c b => W4 m ρ c b
theorem W4_out (c : Dev nD) : V4 m ρ c main_v3 = (dat3 (V3 m ρ) c).arrAt 2 cfg3.N := by
  show W4 m ρ c (Proc.devRef .tc main_v3) = _
  unfold W4; exact Function.update_self _ _ _
theorem W4_rest (c : Dev nD) (b : Ref sig .tc) (h : b ≠ main_v3) : V4 m ρ c b = V3 m ρ c b := by
  show W4 m ρ c (Proc.devRef .tc b) = W3 m ρ c (Proc.devRef .tc b)
  unfold W4; exact Function.update_of_ne (StableHlo.devRef_ne_of_ne h) _ _

/-! ## The arguments and the results at the end -/

theorem W4_arg (c : Dev nD) (b : Ref sig .tc) (h3 : b ≠ main_v3) (h2 : b ≠ main_v2) (h1 : b ≠ main_v1) (h0 : b ≠ main_v0) :
    W4 m ρ c (Proc.devRef .tc b) = m ((c : Thread nD τ).loc b) :=
  (W4_rest m ρ c b h3).trans <| (W3_rest m ρ c b h2).trans <| (W2_rest m ρ c b h1).trans <| (W1_rest m ρ c b h0).trans rfl
theorem W4_main_v3 (c : Dev nD) : W4 m ρ c (Proc.devRef .tc main_v3) = (dat3 (V3 m ρ) c).arrAt 2 cfg3.N := W4_out m ρ c
theorem W4_main_v2 (c : Dev nD) : W4 m ρ c (Proc.devRef .tc main_v2) = (dat2 (V2 m ρ) c).arrAt 3 cfg2.N :=
  (W4_rest m ρ c main_v2 (by decide)).trans (W3_out m ρ c)

/-! ## The proof data family and the thread state -/

/-- No pipeline has a prefetched table. -/
abbrev adm : (p : Fin 4) → (pcfgs (F := F) p).Adm := fun p => (cfgs p).toPCfg_adm
/-- Each pipeline's proof data at the contents its stage is entered with. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stage: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart: every unscoped buffer at the final contents, the generator register. -/
abbrev Tₙ (c : Dev nD) : sProp 𝕄 := iprop(StableHlo.held (c : Thread nD τ) (Pipeline.ucRefs τ sig) (W4 m ρ c) ∗ ∃ r, prngReg c r)

/-! ## The stages as segments -/

set_option backward.isDefEq.respectTransparency.types false in
/-- Stage 0 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg0 : Pipeline.RegionSeg (pcfgs (F := F)) adm (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V0 m ρ) c (V1 m ρ c) (W1_out m ρ c) (W1_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 1 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := entry1 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m ρ) c (V2 m ρ c) (W2_out m ρ c) (W2_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 2 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := entry2 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (V2 m ρ) c (V3 m ρ c) (W3_out m ρ c) (W3_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 3 as a segment of the program: entered with every unscoped buffer at the contents before it, left with
    the stage's result array at what its write-backs leave and every other buffer unchanged. Its arrays are sorted out
    of the unscoped buffers at entry and put back at exit; the generator register goes into the pipeline's invariant
    and comes back; nothing is owed; the kernel has no semaphore of its own. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := entry3 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (V3 m ρ) c (V4 m ρ c) (W4_out m ρ c) (W4_rest m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
/-- The program is the run of the four segments. -/
theorem main_run (c : Dev nD) : main (F := F) c = Pipeline.Seg.run (segs m ρ) := (main_chain c).trans (by chain_rfl)

set_option backward.isDefEq.respectTransparency.types false in
/-- THE RUN. From any launch memory with zero counters every weakly fair execution terminates, nothing faults, the
    decoder's result array ends at what the last stage wrote back, z at what the third stage wrote back, and each
    argument as launched. -/
theorem run_out : θ_run defs (onTc (τ := τ) (main (F := F))) ⟨m, fun _ => 0, ρ⟩ (fun r => ∀ c : Dev nD,
      r.2.mem ((c.tc : Thread nD τ).loc main_v3) = (dat3 (V3 m ρ) c).arrAt 2 cfg3.N
      ∧ r.2.mem ((c.tc : Thread nD τ).loc main_v2) = (dat2 (V2 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_v2 (by decide))).trans (W4_main_v2 m ρ c),
       (h c _ (mem_uc main_arg0 (by decide))).trans (W4_arg m ρ c main_arg0 (by decide) (by decide) (by decide) (by decide)),
       (h c _ (mem_uc main_arg1 (by decide))).trans (W4_arg m ρ c main_arg1 (by decide) (by decide) (by decide) (by decide)),
       (h c _ (mem_uc main_arg2 (by decide))).trans (W4_arg m ρ c main_arg2 (by decide) (by decide) (by decide) (by decide)),
       (h c _ (mem_uc main_arg3 (by decide))).trans (W4_arg m ρ c main_arg3 (by decide) (by decide) (by decide) (by decide))⟩)

/-- THE FRAME: the run, keeping only that the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2) (run_out m ρ)

end Cert.KernelIdeal.Hand

end
-- ==== Proof.Spec.lean ====
/-
  The mathematics both programs compute, stated once, entry by entry, over the extended reals.

  From a feature matrix x (10000 × 128), an adjacency matrix adj (10000 × 10000) and two weight matrices
  W1 (128 × 64), W2 (64 × 16), a two-layer graph convolution followed by an inner-product decoder:

      s1 = x · W1                     (10000 × 64)
      s2 = relu (adj · s1) · W2       (10000 × 16)
      z  = relu (adj · s2)            (10000 × 16)
      ā  = z · zᵀ                     (10000 × 10000)

  and the results are ā and z. Every product is the plain sum, over the contracted coordinate, of the products of
  the two entries; relu is the maximum with 0. Nothing here mentions a program: the stages are functions of arrays,
  an array being a function from the index set of its literal shape to the extended reals, and an index is written
  by its two coordinates (ix2 row column).
-/
import Mathlib
import Idealize.ShloMosaic.PureOps.Ideal.Laws
import Idealize.ShloMosaic.Lib.ValueIdx

noncomputable section

open scoped BigOperators

namespace Cert.Spec

open Idealize.ShloMosaic Idealize.ShloMosaic.ValueIdx

/-- The rectifier on the extended reals: the larger of v and 0. -/
def relu (v : EReal) : EReal := max v 0

/-- The rectifier as both programs spell it: the maximum with the value of the f32 word of zero, which is the
    extended real 0. -/
theorem max_zeroWord (v : EReal) : max v (Ideal.ofBits .f32 0x00000000#32) = relu v := by
  rw [Ideal.ofBits_zero_f32]; rfl

/-- First layer's linear map: s1 = x · W1, entry (r, h) the sum over the 128 input features k of x[r, k] · W1[k, h]. -/
def stage1 (x : (⟨2, ![10000, 128]⟩ : Shape).Idx → EReal) (w1 : (⟨2, ![128, 64]⟩ : Shape).Idx → EReal) :
    (⟨2, ![10000, 64]⟩ : Shape).Idx → EReal :=
  fun i => ∑ k : Fin 128, x (ix2 (i 0) k) * w1 (ix2 k (i 1))

/-- Aggregate over the graph, rectify, and apply the second layer's linear map: s2 = relu (adj · s1) · W2. Entry
    (r, c) is the sum over the 64 hidden features h of relu (∑ k, adj[r, k] · s1[k, h]) · W2[h, c], the inner sum over
    all 10000 nodes k. -/
def stage2 (adj : (⟨2, ![10000, 10000]⟩ : Shape).Idx → EReal) (s1 : (⟨2, ![10000, 64]⟩ : Shape).Idx → EReal)
    (w2 : (⟨2, ![64, 16]⟩ : Shape).Idx → EReal) : (⟨2, ![10000, 16]⟩ : Shape).Idx → EReal :=
  fun i => ∑ h : Fin 64, relu (∑ k : Fin 10000, adj (ix2 (i 0) k) * s1 (ix2 k h)) * w2 (ix2 h (i 1))

/-- Aggregate over the graph once more and rectify: z = relu (adj · s2), entry (r, c) the rectified sum over all
    nodes k of adj[r, k] · s2[k, c]. -/
def stage3 (adj : (⟨2, ![10000, 10000]⟩ : Shape).Idx → EReal) (s2 : (⟨2, ![10000, 16]⟩ : Shape).Idx → EReal) :
    (⟨2, ![10000, 16]⟩ : Shape).Idx → EReal :=
  fun i => relu (∑ k : Fin 10000, adj (ix2 (i 0) k) * s2 (ix2 k (i 1)))

/-- The inner-product decoder: ā = z · zᵀ, entry (r, r') the sum over the 16 embedding coordinates f of
    z[r, f] · z[r', f]. -/
def stage4 (z : (⟨2, ![10000, 16]⟩ : Shape).Idx → EReal) : (⟨2, ![10000, 10000]⟩ : Shape).Idx → EReal :=
  fun i => ∑ f : Fin 16, z (ix2 (i 0) f) * z (ix2 (i 1) f)

/-- The embedding z as a function of the four argument arrays. -/
def zOf (x : (⟨2, ![10000, 128]⟩ : Shape).Idx → EReal) (adj : (⟨2, ![10000, 10000]⟩ : Shape).Idx → EReal)
    (w1 : (⟨2, ![128, 64]⟩ : Shape).Idx → EReal) (w2 : (⟨2, ![64, 16]⟩ : Shape).Idx → EReal) :
    (⟨2, ![10000, 16]⟩ : Shape).Idx → EReal :=
  stage3 adj (stage2 adj (stage1 x w1) w2)

/-- The reconstructed adjacency ā as a function of the four argument arrays. -/
def abarOf (x : (⟨2, ![10000, 128]⟩ : Shape).Idx → EReal) (adj : (⟨2, ![10000, 10000]⟩ : Shape).Idx → EReal)
    (w1 : (⟨2, ![128, 64]⟩ : Shape).Idx → EReal) (w2 : (⟨2, ![64, 16]⟩ : Shape).Idx → EReal) :
    (⟨2, ![10000, 10000]⟩ : Shape).Idx → EReal :=
  stage4 (zOf x adj w1 w2)

/-! ## The stages at an entry given by its coordinates

Each is the definition read at the index (p, q): the coordinates of ix2 p q are p and q. -/

theorem stage1_apply (x : (⟨2, ![10000, 128]⟩ : Shape).Idx → EReal) (w1 : (⟨2, ![128, 64]⟩ : Shape).Idx → EReal)
    (p : Fin 10000) (q : Fin 64) :
    stage1 x w1 (ix2 p q) = ∑ k : Fin 128, x (ix2 p k) * w1 (ix2 k q) := rfl

theorem stage2_apply (adj : (⟨2, ![10000, 10000]⟩ : Shape).Idx → EReal) (s1 : (⟨2, ![10000, 64]⟩ : Shape).Idx → EReal)
    (w2 : (⟨2, ![64, 16]⟩ : Shape).Idx → EReal) (p : Fin 10000) (q : Fin 16) :
    stage2 adj s1 w2 (ix2 p q)
      = ∑ h : Fin 64, relu (∑ k : Fin 10000, adj (ix2 p k) * s1 (ix2 k h)) * w2 (ix2 h q) := rfl

theorem stage3_apply (adj : (⟨2, ![10000, 10000]⟩ : Shape).Idx → EReal) (s2 : (⟨2, ![10000, 16]⟩ : Shape).Idx → EReal)
    (p : Fin 10000) (q : Fin 16) :
    stage3 adj s2 (ix2 p q) = relu (∑ k : Fin 10000, adj (ix2 p k) * s2 (ix2 k q)) := rfl

theorem stage4_apply (z : (⟨2, ![10000, 16]⟩ : Shape).Idx → EReal) (p q : Fin 10000) :
    stage4 z (ix2 p q) = ∑ f : Fin 16, z (ix2 p f) * z (ix2 q f) := rfl

end Cert.Spec

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.Payloads.lean ====
/-
  Each value the tiled program stores, read at one entry, over the extended reals.

  The program's four kernels each load blocks of their operands and store a value computed from them; a generated
  module names these values (one definition per store, over the loaded blocks). Here each is read at the entry
  (p, q) of the stored block, in the vocabulary of the specification:

    * the first kernel stores a block of x · W1: entry (p, q) is ∑ k, x[p, k] · W1[k, q];
    * the second stores, twice per grid step, a block of relu (adj · s1) · W2: entry (p, q) is
      ∑ h, relu (∑ k, adj[p, k] · s1[k, h]) · W2[h, q];
    * the third stores, twice per grid step, a block of relu (adj · s2): entry (p, q) is relu (∑ k, adj[p, k] · s2[k, q]);
    * the fourth stores a block of z · zᵀ: entry (p, q) is ∑ f, z[p, f] · z[q, f], z's rows p taken from the block of
      rows and q ranging over all rows.

  Every matrix product accumulates into the zero array, so it is the plain sum over the contracted coordinate; the
  rectifier is the maximum with a splat of the zero word; a cast of an array to its own shape changes nothing.
-/
import proofs.«133263_g52742198395357_cont_9to1_m_1401_6_alg».proof.Proof.Gen.KernelIdeal.Skeleton
import proofs.«133263_g52742198395357_cont_9to1_m_1401_6_alg».proof.Proof.Spec
import proofs.«133263_g52742198395357_cont_9to1_m_1401_6_alg».proof.Proof.LibPlainDot
import proofs.«133263_g52742198395357_cont_9to1_m_1401_6_alg».proof.Proof.LibIndexReads
import Idealize.ShloMosaic.Lib.Pipeline.Value

noncomputable section

open scoped BigOperators

namespace Cert.KernelIdeal.Pay

open Cert.KernelIdeal Cert.KernelIdeal.Gen
open Idealize.ShloMosaic Idealize.ShloMosaic.ValueIdx

/-! ## The rectified product shared by the second and third kernels -/

/-- A plain product into the zero array, rectified against a splat of the zero word, at entry (p, h): the rectifier
    of the sum over the contracted coordinate. The maximum is taken entry by entry, the splat reads the zero word
    everywhere, and the zero word is 0. -/
theorem relu_matmul_apply {M K N : Nat} (d : DotDims ⟨2, ![M, K]⟩ ⟨2, ![K, N]⟩ ⟨2, ![M, N]⟩) (hd : Cert.PlainDot.IsPlain d)
    (l : FVec Ideal ⟨2, ![M, K]⟩ .f32) (r : FVec Ideal ⟨2, ![K, N]⟩ .f32) (p : Fin M) (h : Fin N) :
    maximumf (matmul d none l r (constant (F := Ideal) ⟨2, ![M, N]⟩ .f32 0x00000000#32))
        (broadcast ⟨2, ![M, N]⟩ (Scalar.ofBits (F := Ideal) .f32 0x00000000#32)) (ix2 p h)
      = Cert.Spec.relu (∑ k : Fin K, l (ix2 p k) * r (ix2 k h)) :=
  (Cert.Spec.max_zeroWord _).trans (congrArg Cert.Spec.relu (Cert.PlainDot.matmul_zero_apply d hd none l r p h))

/-! ## First kernel: a block of x · W1 -/

/-- The first kernel's stored block at (p, q): the sum over the 128 input features. -/
theorem k0_pay1_apply (v0 : Vec Ideal S2000x128 .f32) (v1 : Vec Ideal S128x64 .f32) (p : Fin 2000) (q : Fin 64) :
    k0_pay1 (F := Ideal) v0 v1 (ix2 p q) = ∑ k : Fin 128, v0 (ix2 p k) * v1 (ix2 k q) := by
  unfold k0_pay1
  exact Cert.PlainDot.matmul_zero_apply dot_S2000x128_S128x64_S2000x64_1_0_0_1_n_n ⟨rfl, rfl, rfl, rfl, rfl, rfl⟩ none v0 v1 p q

/-! ## Second kernel: two blocks of relu (adj · s1) · W2 -/

/-- The second kernel's first stored block at (p, q): the outer product sums over the 64 hidden features h, and its
    left factor at (p, h) is the rectified aggregate over all 10000 nodes. -/
theorem k1_pay1_apply (v0 : Vec Ideal S200x10000 .f32) (v1 : Vec Ideal S10000x64 .f32) (v12 : Vec Ideal S64x16 .f32)
    (p : Fin 200) (q : Fin 16) :
    k1_pay1 (F := Ideal) v0 v1 v12 (ix2 p q)
      = ∑ h : Fin 64, Cert.Spec.relu (∑ k : Fin 10000, v0 (ix2 p k) * v1 (ix2 k h)) * v12 (ix2 h q) := by
  unfold k1_pay1
  -- the cast of the s1 operand to its own shape is the identity
  rw [shapeCast_self]
  -- the outer product, then its left factor entry by entry
  refine (Cert.PlainDot.matmul_zero_apply dot_S200x64_S64x16_S200x16_1_0_0_1_n_n ⟨rfl, rfl, rfl, rfl, rfl, rfl⟩ none _ v12 p q).trans ?_
  refine Finset.sum_congr rfl fun h _ => congrArg (· * v12 (ix2 h q)) ?_
  exact relu_matmul_apply dot_S200x10000_S10000x64_S200x64_1_0_0_1_n_n ⟨rfl, rfl, rfl, rfl, rfl, rfl⟩ v0 v1 p h

/-- The second kernel's second stored block at (p, q): the same value of its own operands. -/
theorem k1_pay2_apply (v6 : Vec Ideal S200x10000 .f32) (v7 : Vec Ideal S10000x64 .f32) (v15 : Vec Ideal S64x16 .f32)
    (p : Fin 200) (q : Fin 16) :
    k1_pay2 (F := Ideal) v6 v7 v15 (ix2 p q)
      = ∑ h : Fin 64, Cert.Spec.relu (∑ k : Fin 10000, v6 (ix2 p k) * v7 (ix2 k h)) * v15 (ix2 h q) := by
  unfold k1_pay2
  rw [shapeCast_self]
  refine (Cert.PlainDot.matmul_zero_apply dot_S200x64_S64x16_S200x16_1_0_0_1_n_n ⟨rfl, rfl, rfl, rfl, rfl, rfl⟩ none _ v15 p q).trans ?_
  refine Finset.sum_congr rfl fun h _ => congrArg (· * v15 (ix2 h q)) ?_
  exact relu_matmul_apply dot_S200x10000_S10000x64_S200x64_1_0_0_1_n_n ⟨rfl, rfl, rfl, rfl, rfl, rfl⟩ v6 v7 p h

/-! ## Third kernel: two blocks of relu (adj · s2) -/

/-- The third kernel's first stored block at (p, q): the rectified aggregate over all 10000 nodes. -/
theorem k2_pay1_apply (v0 : Vec Ideal S200x10000 .f32) (v1 : Vec Ideal S10000x16 .f32) (p : Fin 200) (q : Fin 16) :
    k2_pay1 (F := Ideal) v0 v1 (ix2 p q) = Cert.Spec.relu (∑ k : Fin 10000, v0 (ix2 p k) * v1 (ix2 k q)) := by
  unfold k2_pay1
  rw [shapeCast_self]
  exact relu_matmul_apply dot_S200x10000_S10000x16_S200x16_1_0_0_1_n_n ⟨rfl, rfl, rfl, rfl, rfl, rfl⟩ v0 v1 p q

/-- The third kernel's second stored block at (p, q): the same value of its own operands. -/
theorem k2_pay2_apply (v7 : Vec Ideal S200x10000 .f32) (v8 : Vec Ideal S10000x16 .f32) (p : Fin 200) (q : Fin 16) :
    k2_pay2 (F := Ideal) v7 v8 (ix2 p q) = Cert.Spec.relu (∑ k : Fin 10000, v7 (ix2 p k) * v8 (ix2 k q)) := by
  unfold k2_pay2
  rw [shapeCast_self]
  exact relu_matmul_apply dot_S200x10000_S10000x16_S200x16_1_0_0_1_n_n ⟨rfl, rfl, rfl, rfl, rfl, rfl⟩ v7 v8 p q

/-! ## Fourth kernel: a block of z · zᵀ -/

/-- The fourth kernel's stored block at (p, q): both operands contract their second axis, so the entry is the sum
    over the 16 embedding coordinates f of (block of z)[p, f] · z[q, f]. -/
theorem k3_pay1_apply (v0 : Vec Ideal S400x16 .f32) (v2 : Vec Ideal S10000x16 .f32) (p : Fin 400) (q : Fin 10000) :
    k3_pay1 (F := Ideal) v0 v2 (ix2 p q) = ∑ f : Fin 16, v0 (ix2 p f) * v2 (ix2 q f) := by
  unfold k3_pay1
  rw [shapeCast_self, shapeCast_self]
  exact Cert.Lib.IndexReads.matmul_nt_apply dot_S400x16_S10000x16_S400x10000_1_1_0_0_n_n_wf none v0 v2 p q

end Cert.KernelIdeal.Pay

end
-- ==== Proof.KernelIdeal.Val0.lean ====
/-
  The first stage's result as one function of the arrays it found. Point t of the pipeline holds rows
  2000·t … 2000·t+1999 of x and the whole of W1, and its one store writes their product; read at row p and column q
  that is the sum over k of x[2000·t+p, k] · W1[k, q], which is entry (2000·t+p, q) of x · W1. So what point t writes
  back is block t of x · W1, the five blocks cover the 10000 rows, and after the five points the result array holds
  x · W1 of the arrays the stage was entered with.
-/
import proofs.«133263_g52742198395357_cont_9to1_m_1401_6_alg».proof.Proof.KernelIdeal.Region0
import proofs.«133263_g52742198395357_cont_9to1_m_1401_6_alg».proof.Proof.Spec
import proofs.«133263_g52742198395357_cont_9to1_m_1401_6_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the five points: the x window and the output window are at block row t, W1 at its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 2000·t + p of the array. -/
def row0 (t : Fin cfg0.N) (p : Fin 2000) : Fin 10000 := ⟨t.val * 2000 + p.val, by have ht : t.val < 5 := N_0 ▸ t.isLt; have := p.isLt; omega⟩

theorem xblk0 (c : Dev nD) (t : Fin cfg0.N) (p : Fin 2000) (k : Fin 128) :
    iblk0 V c 0 t (ix2 p k) = V c main_arg0 (ix2 (row0 t p) k) := by
  obtain ⟨e0, e1, -, -, -, -⟩ := idx0 t
  show V c main_arg0 (((cfg0.win 0).blk t).view.emb (ix2 p k)) = V c main_arg0 (ix2 (row0 t p) k)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem wblk0 (c : Dev nD) (t : Fin cfg0.N) (k : Fin 128) (q : Fin 64) :
    iblk0 V c 1 t (ix2 k q) = V c main_arg2 (ix2 k q) := by
  obtain ⟨-, -, e2, e3, -, -⟩ := idx0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

theorem oblk0 (t : Fin cfg0.N) (p : Fin 2000) (q : Fin 64) :
    ((cfg0.win 2).blk t).view.emb (ix2 p q) = ix2 (row0 t p) q := by
  obtain ⟨-, -, -, -, e4, e5⟩ := idx0 t
  refine funext fun a => Fin.ext ?_
  match a with
  | ⟨0, _⟩ => show win0_2.index t (0 : Fin 2) * 2000 + 1 * p.val = t.val * 2000 + p.val; omega
  | ⟨1, _⟩ => show win0_2.index t (1 : Fin 2) * 64 + 1 * q.val = q.val; omega

/-- What point t writes back is block t of the product of the arrays as the stage finds them. -/
theorem flushed0_eq (c : Dev nD) (t : Fin cfg0.N) :
    (dat0 V c).flushed 2 t = ((cfg0.win 2).blk t).view.read (Elt Ideal) (Cert.Spec.stage1 (V c main_arg0) (V c main_arg2)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x64) hz0]
  funext j
  obtain ⟨p, q, rfl⟩ : ∃ (p : Fin 2000) (q : Fin 64), j = ix2 p q := ⟨j 0, j 1, eq_ix2 j⟩
  show k0_pay1 (F := Ideal) (iblk0 V c 0 t) (iblk0 V c 1 t) (ix2 p q)
    = Cert.Spec.stage1 (V c main_arg0) (V c main_arg2) (((cfg0.win 2).blk t).view.emb (ix2 p q))
  rw [oblk0 t p q, Cert.Spec.stage1_apply]
  refine (Cert.KernelIdeal.Pay.k0_pay1_apply _ _ p q).trans (Finset.sum_congr rfl fun k _ => ?_)
  rw [xblk0 V c t p k, wblk0 V c t k q]

theorem mem_blk0 (t : Fin cfg0.N) (i : S10000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

theorem idx_onto0 : ∀ q0 : Fin 5, ∃ t : Fin cfg0.N, win0_2.index t = ![q0.val, 0] :=
  (by decide +kernel : ∀ q0 : Fin 5, ∃ t : Fin grid0.N, win0_2.index t = ![q0.val, 0])

theorem cover0 (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The stage's result array after its five points: the product x · W1 of the arrays it found. -/
theorem final0 (c : Dev nD) : (dat0 V c).arrAt 2 cfg0.N = Cert.Spec.stage1 (V c main_arg0) (V c main_arg2) :=
  (dat0 V c).arrAt_eq_of_cover 2 _ (fun t _ => flushed0_eq V c t) (cover0)

end Cert.KernelIdeal.Hand

end
-- ==== Proof.KernelIdeal.Val1.lean ====
/-
  The second stage's result as one function of the arrays it found. Point t of the pipeline holds two strips of 200
  rows of adj — rows 400·t … 400·t+199 and 400·t+200 … 400·t+399 — and the whole of s1 and W2. For each strip its store
  writes, at row p and column q, the sum over h of relu(∑ₖ adj[row, k] · s1[k, h]) · W2[h, q] with row = 400·t+p for the
  upper half of the output block and 400·t+200+p for the lower half: entry (row, q) of relu(adj · s1) · W2. The two
  stores together cover the 400 × 16 block, so what point t writes back is block t of that array, the 25 blocks
  cover the 10000 rows, and after the 25 points the result array holds relu(adj · s1) · W2 of what the stage found.
-/
import proofs.«133263_g52742198395357_cont_9to1_m_1401_6_alg».proof.Proof.KernelIdeal.Region1
import proofs.«133263_g52742198395357_cont_9to1_m_1401_6_alg».proof.Proof.Spec
import proofs.«133263_g52742198395357_cont_9to1_m_1401_6_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the 25 points: the two adj windows are at block rows 2t and 2t+1 (blocks of 200 rows),
    s1 and W2 at their one block, the output window at block row t (blocks of 400 rows). -/
theorem idx1 : ∀ t : Fin cfg1.N, win1_0.index t (0 : Fin 2) = 2 * t.val ∧ win1_0.index t (1 : Fin 2) = 0
    ∧ win1_1.index t (0 : Fin 2) = 2 * t.val + 1 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row y of point t's output block is row 400·t + y of the array; its upper half is rows 0 … 199 of the block, its
    lower half rows 200 … 399. -/
def row1 (t : Fin cfg1.N) (y : Fin 400) : Fin 10000 := ⟨t.val * 400 + y.val, by have ht : t.val < 25 := N_1 ▸ t.isLt; have := y.isLt; omega⟩
def lo1 (p : Fin 200) : Fin 400 := ⟨p.val, by have := p.isLt; omega⟩
def hi1 (p : Fin 200) : Fin 400 := ⟨200 + p.val, by have := p.isLt; omega⟩

theorem ablk1_lo (c : Dev nD) (t : Fin cfg1.N) (p : Fin 200) (k : Fin 10000) :
    iblk1 V c 0 t (ix2 p k) = V c main_arg1 (ix2 (row1 t (lo1 p)) k) := by
  have hx := idx1 t
  show V c main_arg1 (((cfg1.win 0).blk t).view.emb (ix2 p k)) = V c main_arg1 (ix2 (row1 t (lo1 p)) k)
  refine congrArg _ (funext fun a => Fin.ext ?_)
  match a with
  | ⟨0, _⟩ => show win1_0.index t (0 : Fin 2) * 200 + 1 * p.val = t.val * 400 + p.val; omega
  | ⟨1, _⟩ => show win1_0.index t (1 : Fin 2) * 10000 + 1 * k.val = k.val; omega

theorem ablk1_hi (c : Dev nD) (t : Fin cfg1.N) (p : Fin 200) (k : Fin 10000) :
    iblk1 V c 1 t (ix2 p k) = V c main_arg1 (ix2 (row1 t (hi1 p)) k) := by
  have hx := idx1 t
  show V c main_arg1 (((cfg1.win 1).blk t).view.emb (ix2 p k)) = V c main_arg1 (ix2 (row1 t (hi1 p)) k)
  refine congrArg _ (funext fun a => Fin.ext ?_)
  match a with
  | ⟨0, _⟩ => show win1_1.index t (0 : Fin 2) * 200 + 1 * p.val = t.val * 400 + (200 + p.val); omega
  | ⟨1, _⟩ => show win1_1.index t (1 : Fin 2) * 10000 + 1 * k.val = k.val; omega

theorem sblk1 (c : Dev nD) (t : Fin cfg1.N) (p : Fin 10000) (k : Fin 64) :
    iblk1 V c 2 t (ix2 p k) = V c main_v0 (ix2 p k) := by
  have hx := idx1 t
  show V c main_v0 (((cfg1.win 2).blk t).view.emb (ix2 p k)) = V c main_v0 (ix2 p k)
  refine congrArg _ (funext fun a => Fin.ext ?_)
  match a with
  | ⟨0, _⟩ => show win1_2.index t (0 : Fin 2) * 10000 + 1 * p.val = p.val; omega
  | ⟨1, _⟩ => show win1_2.index t (1 : Fin 2) * 64 + 1 * k.val = k.val; omega

theorem wblk1 (c : Dev nD) (t : Fin cfg1.N) (p : Fin 64) (k : Fin 16) :
    iblk1 V c 3 t (ix2 p k) = V c main_arg3 (ix2 p k) := by
  have hx := idx1 t
  show V c main_arg3 (((cfg1.win 3).blk t).view.emb (ix2 p k)) = V c main_arg3 (ix2 p k)
  refine congrArg _ (funext fun a => Fin.ext ?_)
  match a with
  | ⟨0, _⟩ => show win1_3.index t (0 : Fin 2) * 64 + 1 * p.val = p.val; omega
  | ⟨1, _⟩ => show win1_3.index t (1 : Fin 2) * 16 + 1 * k.val = k.val; omega

theorem oblk1 (t : Fin cfg1.N) (y : Fin 400) (q : Fin 16) :
    ((cfg1.win 4).blk t).view.emb (ix2 y q) = ix2 (row1 t y) q := by
  have hx := idx1 t
  refine funext fun a => Fin.ext ?_
  match a with
  | ⟨0, _⟩ => show win1_4.index t (0 : Fin 2) * 400 + 1 * y.val = t.val * 400 + y.val; omega
  | ⟨1, _⟩ => show win1_4.index t (1 : Fin 2) * 16 + 1 * q.val = q.val; omega

/-- Where the two stores land in the output block. -/
theorem rLo1_emb (p : Fin 200) (q : Fin 16) : rLo1.emb (ix2 p q) = ix2 (lo1 p) q := by
  refine funext fun a => Fin.ext ?_
  match a with
  | ⟨0, _⟩ => show 0 + 1 * p.val = p.val; omega
  | ⟨1, _⟩ => show 0 + 1 * q.val = q.val; omega
theorem rHi1_emb (p : Fin 200) (q : Fin 16) : rHi1.emb (ix2 p q) = ix2 (hi1 p) q := by
  refine funext fun a => Fin.ext ?_
  match a with
  | ⟨0, _⟩ => show 200 + 1 * p.val = 200 + p.val; omega
  | ⟨1, _⟩ => show 0 + 1 * q.val = q.val; omega

/-- The stage's function of the arrays it found, read at row y of point t's output block. -/
def blockFn1 (c : Dev nD) (t : Fin cfg1.N) : S400x16.Idx → Elt Ideal .f32 := fun y =>
  Cert.Spec.stage2 (V c main_arg1) (V c main_v0) (V c main_arg3) (((cfg1.win 4).blk t).view.emb y)

/-- Each half's store is the stage's function on its rows: the strip of adj fetched for that half is the rows of adj
    the function reads there, and s1 and W2 are whole. -/
theorem lo_piece1 (c : Dev nD) (t : Fin cfg1.N) (p : Fin 200) (q : Fin 16) :
    k1_pay1 (F := Ideal) (iblk1 V c 0 t) (iblk1 V c 2 t) (iblk1 V c 3 t) (ix2 p q) = blockFn1 V c t (ix2 (lo1 p) q) := by
  unfold blockFn1
  rw [oblk1 t (lo1 p) q, Cert.Spec.stage2_apply]
  refine (Cert.KernelIdeal.Pay.k1_pay1_apply _ _ _ p q).trans (Finset.sum_congr rfl fun h _ => ?_)
  rw [wblk1 V c t h q]
  refine congrArg (fun s => Cert.Spec.relu s * _) (Finset.sum_congr rfl fun k _ => ?_)
  rw [ablk1_lo V c t p k, sblk1 V c t k h]
theorem hi_piece1 (c : Dev nD) (t : Fin cfg1.N) (p : Fin 200) (q : Fin 16) :
    k1_pay2 (F := Ideal) (iblk1 V c 1 t) (iblk1 V c 2 t) (iblk1 V c 3 t) (ix2 p q) = blockFn1 V c t (ix2 (hi1 p) q) := by
  unfold blockFn1
  rw [oblk1 t (hi1 p) q, Cert.Spec.stage2_apply]
  refine (Cert.KernelIdeal.Pay.k1_pay2_apply _ _ _ p q).trans (Finset.sum_congr rfl fun h _ => ?_)
  rw [wblk1 V c t h q]
  refine congrArg (fun s => Cert.Spec.relu s * _) (Finset.sum_congr rfl fun k _ => ?_)
  rw [ablk1_hi V c t p k, sblk1 V c t k h]

/-- What point t writes back is block t of relu(adj · s1) · W2 of the arrays as the stage finds them: both stores are
    that function on their halves, and together they cover the block. -/
theorem flushed1_eq (c : Dev nD) (t : Fin cfg1.N) :
    (dat1 V c).flushed 4 t = ((cfg1.win 4).blk t).view.read (Elt Ideal) (Cert.Spec.stage2 (V c main_arg1) (V c main_v0) (V c main_arg3)) := by
  show (cfg1.win 4).cut (grid1.coords t) ((dat1 V c).after 4 t) = _
  rw [after1_4]
  unfold out1_4
  simp only [View.ld_unit_zero (S := S200x10000) hz1, View.ld_unit_zero (S := S10000x64) hz1, View.ld_unit_zero (S := S64x16) hz1]
  funext j
  show View.canon (Val := Elt Ideal) (s := S400x16) _ j = blockFn1 V c t j
  refine View.canon_apply_of_pieces (Val := Elt Ideal) (blockFn1 V c t) _ ?_ j (cover1_4 _ _ j)
  intro pc hpc x
  rcases List.mem_cons.mp hpc with rfl | hpc
  · obtain ⟨p, q, rfl⟩ : ∃ (p : Fin 200) (q : Fin 16), x = ix2 p q := ⟨x 0, x 1, eq_ix2 x⟩
    exact (hi_piece1 V c t p q).trans (congrArg _ (rHi1_emb p q).symm)
  · rcases List.mem_singleton.mp hpc with rfl
    obtain ⟨p, q, rfl⟩ : ∃ (p : Fin 200) (q : Fin 16), x = ix2 p q := ⟨x 0, x 1, eq_ix2 x⟩
    exact (lo_piece1 V c t p q).trans (congrArg _ (rLo1_emb p q).symm)

theorem mem_blk1 (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v1).slice (win1_4.rect t)).set ↔ _
  rw [View.set_slice_whole, Rect.mem_set_unit]
  exact Iff.rfl

theorem idx_onto1 : ∀ q0 : Fin 25, ∃ t : Fin cfg1.N, win1_4.index t = ![q0.val, 0] :=
  (by decide +kernel : ∀ q0 : Fin 25, ∃ t : Fin grid1.N, win1_4.index t = ![q0.val, 0])

/-- Every row of the result lies in some point's block: row r in point r / 400's. -/
theorem cover1 (i : S10000x16.Idx) : ∃ t : Fin cfg1.N, (cfg1.win 4).flush t = true ∧ i ∈ ((cfg1.win 4).blk t).view.set := by
  have hi0 : (i 0).val < 10000 := (i 0).isLt
  have hi1 : (i 1).val < 16 := (i 1).isLt
  obtain ⟨t, ht⟩ := idx_onto1 ⟨(i 0).val / 400, by omega⟩
  have q0 : win1_4.index t (0 : Fin 2) = (i 0).val / 400 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 16 ≤ (i 1).val ∧ (i 1).val < win1_4.index t (1 : Fin 2) * 16 + 16; omega

/-- The stage's result array after its 25 points: relu(adj · s1) · W2 of the arrays it found. -/
theorem final1 (c : Dev nD) : (dat1 V c).arrAt 4 cfg1.N = Cert.Spec.stage2 (V c main_arg1) (V c main_v0) (V c main_arg3) :=
  (dat1 V c).arrAt_eq_of_cover 4 _ (fun t _ => flushed1_eq V c t) cover1

end Cert.KernelIdeal.Hand

end
-- ==== Proof.KernelIdeal.Val2.lean ====
/-
  The third stage's result z as one function of the arrays it found. Point t of the pipeline holds two strips of 200
  rows of adj — rows 400·t … 400·t+199 and 400·t+200 … 400·t+399 — and the whole of s2. For each strip its store writes,
  at row p and column q, relu(∑ₖ adj[row, k] · s2[k, q]) with row = 400·t+p for the upper half of the output block and
  400·t+200+p for the lower half: entry (row, q) of relu(adj · s2). The two stores together cover the 400 × 16 block,
  so what point t writes back is block t of that array, the 25 blocks cover the 10000 rows, and after the 25 points
  the result array holds relu(adj · s2) of what the stage found.
-/
import proofs.«133263_g52742198395357_cont_9to1_m_1401_6_alg».proof.Proof.KernelIdeal.Region2
import proofs.«133263_g52742198395357_cont_9to1_m_1401_6_alg».proof.Proof.Spec
import proofs.«133263_g52742198395357_cont_9to1_m_1401_6_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the 25 points: the two adj windows are at block rows 2t and 2t+1 (blocks of 200 rows),
    s2 at its one block, the output window at block row t (blocks of 400 rows). -/
theorem idx2 : ∀ t : Fin cfg2.N, win2_0.index t (0 : Fin 2) = 2 * t.val ∧ win2_0.index t (1 : Fin 2) = 0
    ∧ win2_1.index t (0 : Fin 2) = 2 * t.val + 1 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row y of point t's output block is row 400·t + y of the array; its upper half is rows 0 … 199 of the block, its
    lower half rows 200 … 399. -/
def row2 (t : Fin cfg2.N) (y : Fin 400) : Fin 10000 := ⟨t.val * 400 + y.val, by have ht : t.val < 25 := N_2 ▸ t.isLt; have := y.isLt; omega⟩
def lo2 (p : Fin 200) : Fin 400 := ⟨p.val, by have := p.isLt; omega⟩
def hi2 (p : Fin 200) : Fin 400 := ⟨200 + p.val, by have := p.isLt; omega⟩

theorem ablk2_lo (c : Dev nD) (t : Fin cfg2.N) (p : Fin 200) (k : Fin 10000) :
    iblk2 V c 0 t (ix2 p k) = V c main_arg1 (ix2 (row2 t (lo2 p)) k) := by
  have hx := idx2 t
  show V c main_arg1 (((cfg2.win 0).blk t).view.emb (ix2 p k)) = V c main_arg1 (ix2 (row2 t (lo2 p)) k)
  refine congrArg _ (funext fun a => Fin.ext ?_)
  match a with
  | ⟨0, _⟩ => show win2_0.index t (0 : Fin 2) * 200 + 1 * p.val = t.val * 400 + p.val; omega
  | ⟨1, _⟩ => show win2_0.index t (1 : Fin 2) * 10000 + 1 * k.val = k.val; omega

theorem ablk2_hi (c : Dev nD) (t : Fin cfg2.N) (p : Fin 200) (k : Fin 10000) :
    iblk2 V c 1 t (ix2 p k) = V c main_arg1 (ix2 (row2 t (hi2 p)) k) := by
  have hx := idx2 t
  show V c main_arg1 (((cfg2.win 1).blk t).view.emb (ix2 p k)) = V c main_arg1 (ix2 (row2 t (hi2 p)) k)
  refine congrArg _ (funext fun a => Fin.ext ?_)
  match a with
  | ⟨0, _⟩ => show win2_1.index t (0 : Fin 2) * 200 + 1 * p.val = t.val * 400 + (200 + p.val); omega
  | ⟨1, _⟩ => show win2_1.index t (1 : Fin 2) * 10000 + 1 * k.val = k.val; omega

theorem sblk2 (c : Dev nD) (t : Fin cfg2.N) (p : Fin 10000) (k : Fin 16) :
    iblk2 V c 2 t (ix2 p k) = V c main_v1 (ix2 p k) := by
  have hx := idx2 t
  show V c main_v1 (((cfg2.win 2).blk t).view.emb (ix2 p k)) = V c main_v1 (ix2 p k)
  refine congrArg _ (funext fun a => Fin.ext ?_)
  match a with
  | ⟨0, _⟩ => show win2_2.index t (0 : Fin 2) * 10000 + 1 * p.val = p.val; omega
  | ⟨1, _⟩ => show win2_2.index t (1 : Fin 2) * 16 + 1 * k.val = k.val; omega

theorem oblk2 (t : Fin cfg2.N) (y : Fin 400) (q : Fin 16) :
    ((cfg2.win 3).blk t).view.emb (ix2 y q) = ix2 (row2 t y) q := by
  have hx := idx2 t
  refine funext fun a => Fin.ext ?_
  match a with
  | ⟨0, _⟩ => show win2_3.index t (0 : Fin 2) * 400 + 1 * y.val = t.val * 400 + y.val; omega
  | ⟨1, _⟩ => show win2_3.index t (1 : Fin 2) * 16 + 1 * q.val = q.val; omega

/-- Where the two stores land in the output block. -/
theorem rLo2_emb (p : Fin 200) (q : Fin 16) : rLo2.emb (ix2 p q) = ix2 (lo2 p) q := by
  refine funext fun a => Fin.ext ?_
  match a with
  | ⟨0, _⟩ => show 0 + 1 * p.val = p.val; omega
  | ⟨1, _⟩ => show 0 + 1 * q.val = q.val; omega
theorem rHi2_emb (p : Fin 200) (q : Fin 16) : rHi2.emb (ix2 p q) = ix2 (hi2 p) q := by
  refine funext fun a => Fin.ext ?_
  match a with
  | ⟨0, _⟩ => show 200 + 1 * p.val = 200 + p.val; omega
  | ⟨1, _⟩ => show 0 + 1 * q.val = q.val; omega

/-- The stage's function of the arrays it found, read at row y of point t's output block. -/
def blockFn2 (c : Dev nD) (t : Fin cfg2.N) : S400x16.Idx → Elt Ideal .f32 := fun y =>
  Cert.Spec.stage3 (V c main_arg1) (V c main_v1) (((cfg2.win 3).blk t).view.emb y)

/-- Each half's store is the stage's function on its rows: the strip of adj fetched for that half is the rows of adj
    the function reads there, and s2 is whole. -/
theorem lo_piece2 (c : Dev nD) (t : Fin cfg2.N) (p : Fin 200) (q : Fin 16) :
    k2_pay1 (F := Ideal) (iblk2 V c 0 t) (iblk2 V c 2 t) (ix2 p q) = blockFn2 V c t (ix2 (lo2 p) q) := by
  unfold blockFn2
  rw [oblk2 t (lo2 p) q, Cert.Spec.stage3_apply]
  refine (Cert.KernelIdeal.Pay.k2_pay1_apply _ _ p q).trans (congrArg Cert.Spec.relu (Finset.sum_congr rfl fun k _ => ?_))
  rw [ablk2_lo V c t p k, sblk2 V c t k q]
theorem hi_piece2 (c : Dev nD) (t : Fin cfg2.N) (p : Fin 200) (q : Fin 16) :
    k2_pay2 (F := Ideal) (iblk2 V c 1 t) (iblk2 V c 2 t) (ix2 p q) = blockFn2 V c t (ix2 (hi2 p) q) := by
  unfold blockFn2
  rw [oblk2 t (hi2 p) q, Cert.Spec.stage3_apply]
  refine (Cert.KernelIdeal.Pay.k2_pay2_apply _ _ p q).trans (congrArg Cert.Spec.relu (Finset.sum_congr rfl fun k _ => ?_))
  rw [ablk2_hi V c t p k, sblk2 V c t k q]

/-- What point t writes back is block t of relu(adj · s2) of the arrays as the stage finds them: both stores are that
    function on their halves, and together they cover the block. -/
theorem flushed2_eq (c : Dev nD) (t : Fin cfg2.N) :
    (dat2 V c).flushed 3 t = ((cfg2.win 3).blk t).view.read (Elt Ideal) (Cert.Spec.stage3 (V c main_arg1) (V c main_v1)) := by
  show (cfg2.win 3).cut (grid2.coords t) ((dat2 V c).after 3 t) = _
  rw [after2_3]
  unfold out2_3
  simp only [View.ld_unit_zero (S := S200x10000) hz2, View.ld_unit_zero (S := S10000x16) hz2]
  funext j
  show View.canon (Val := Elt Ideal) (s := S400x16) _ j = blockFn2 V c t j
  refine View.canon_apply_of_pieces (Val := Elt Ideal) (blockFn2 V c t) _ ?_ j (cover2_3 _ _ j)
  intro pc hpc x
  rcases List.mem_cons.mp hpc with rfl | hpc
  · obtain ⟨p, q, rfl⟩ : ∃ (p : Fin 200) (q : Fin 16), x = ix2 p q := ⟨x 0, x 1, eq_ix2 x⟩
    exact (hi_piece2 V c t p q).trans (congrArg _ (rHi2_emb p q).symm)
  · rcases List.mem_singleton.mp hpc with rfl
    obtain ⟨p, q, rfl⟩ : ∃ (p : Fin 200) (q : Fin 16), x = ix2 p q := ⟨x 0, x 1, eq_ix2 x⟩
    exact (lo_piece2 V c t p q).trans (congrArg _ (rLo2_emb p q).symm)

theorem mem_blk2 (t : Fin cfg2.N) (i : S10000x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v2).slice (win2_3.rect t)).set ↔ _
  rw [View.set_slice_whole, Rect.mem_set_unit]
  exact Iff.rfl

theorem idx_onto2 : ∀ q0 : Fin 25, ∃ t : Fin cfg2.N, win2_3.index t = ![q0.val, 0] :=
  (by decide +kernel : ∀ q0 : Fin 25, ∃ t : Fin grid2.N, win2_3.index t = ![q0.val, 0])

/-- Every row of the result lies in some point's block: row r in point r / 400's. -/
theorem cover2 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  obtain ⟨t, ht⟩ := idx_onto2 ⟨(i 0).val / 400, by omega⟩
  have q0 : win2_3.index t (0 : Fin 2) = (i 0).val / 400 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 16 ≤ (i 1).val ∧ (i 1).val < win2_3.index t (1 : Fin 2) * 16 + 16; omega

/-- The stage's result array after its 25 points: relu(adj · s2) of the arrays it found. -/
theorem final2 (c : Dev nD) : (dat2 V c).arrAt 3 cfg2.N = Cert.Spec.stage3 (V c main_arg1) (V c main_v1) :=
  (dat2 V c).arrAt_eq_of_cover 3 _ (fun t _ => flushed2_eq V c t) cover2

end Cert.KernelIdeal.Hand

end
-- ==== Proof.KernelIdeal.Val3.lean ====
/-
  The last stage's result as one function of the array it found. Point t of the pipeline holds rows
  400·t … 400·t+399 of z through one window and the whole of z through another, and its one store writes their
  product contracted on the feature axis; read at row p and column q that is the sum over f of z[400·t+p, f] · z[q, f],
  which is entry (400·t+p, q) of z · zᵀ. So what point t writes back is block t of z · zᵀ, the 25 blocks cover the
  10000 rows, and after the 25 points the result array holds z · zᵀ of the z the stage was entered with.
-/
import proofs.«133263_g52742198395357_cont_9to1_m_1401_6_alg».proof.Proof.KernelIdeal.Region3
import proofs.«133263_g52742198395357_cont_9to1_m_1401_6_alg».proof.Proof.Spec
import proofs.«133263_g52742198395357_cont_9to1_m_1401_6_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the 25 points: the row-block window on z and the output window are at block row t,
    the whole-array window on z at its one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of point t's block is row 400·t + p of the array. -/
def row3 (t : Fin cfg3.N) (p : Fin 400) : Fin 10000 := ⟨t.val * 400 + p.val, by have ht : t.val < 25 := N_3 ▸ t.isLt; have := p.isLt; omega⟩

theorem zblk3 (c : Dev nD) (t : Fin cfg3.N) (p : Fin 400) (k : Fin 16) :
    iblk3 V c 0 t (ix2 p k) = V c main_v2 (ix2 (row3 t p) k) := by
  have hx := idx3 t
  show V c main_v2 (((cfg3.win 0).blk t).view.emb (ix2 p k)) = V c main_v2 (ix2 (row3 t p) k)
  refine congrArg _ (funext fun a => Fin.ext ?_)
  match a with
  | ⟨0, _⟩ => show win3_0.index t (0 : Fin 2) * 400 + 1 * p.val = t.val * 400 + p.val; omega
  | ⟨1, _⟩ => show win3_0.index t (1 : Fin 2) * 16 + 1 * k.val = k.val; omega

theorem zzblk3 (c : Dev nD) (t : Fin cfg3.N) (p : Fin 10000) (k : Fin 16) :
    iblk3 V c 1 t (ix2 p k) = V c main_v2 (ix2 p k) := by
  have hx := idx3 t
  show V c main_v2 (((cfg3.win 1).blk t).view.emb (ix2 p k)) = V c main_v2 (ix2 p k)
  refine congrArg _ (funext fun a => Fin.ext ?_)
  match a with
  | ⟨0, _⟩ => show win3_1.index t (0 : Fin 2) * 10000 + 1 * p.val = p.val; omega
  | ⟨1, _⟩ => show win3_1.index t (1 : Fin 2) * 16 + 1 * k.val = k.val; omega

theorem oblk3 (t : Fin cfg3.N) (p : Fin 400) (q : Fin 10000) :
    ((cfg3.win 2).blk t).view.emb (ix2 p q) = ix2 (row3 t p) q := by
  have hx := idx3 t
  refine funext fun a => Fin.ext ?_
  match a with
  | ⟨0, _⟩ => show win3_2.index t (0 : Fin 2) * 400 + 1 * p.val = t.val * 400 + p.val; omega
  | ⟨1, _⟩ => show win3_2.index t (1 : Fin 2) * 10000 + 1 * q.val = q.val; omega

/-- What point t writes back is block t of z · zᵀ of the array as the stage finds it. -/
theorem flushed3_eq (c : Dev nD) (t : Fin cfg3.N) :
    (dat3 V c).flushed 2 t = ((cfg3.win 2).blk t).view.read (Elt Ideal) (Cert.Spec.stage4 (V c main_v2)) := by
  show (cfg3.win 2).cut (grid3.coords t) ((dat3 V c).after 2 t) = _
  rw [after3_2]
  unfold out3_2
  rw [View.canon_unit_zero hz3]
  simp only [View.ld_unit_zero (S := S400x16) hz3, View.ld_unit_zero (S := S10000x16) hz3]
  funext j
  obtain ⟨p, q, rfl⟩ : ∃ (p : Fin 400) (q : Fin 10000), j = ix2 p q := ⟨j 0, j 1, eq_ix2 j⟩
  show k3_pay1 (F := Ideal) (iblk3 V c 0 t) (iblk3 V c 1 t) (ix2 p q)
    = Cert.Spec.stage4 (V c main_v2) (((cfg3.win 2).blk t).view.emb (ix2 p q))
  rw [oblk3 t p q, Cert.Spec.stage4_apply]
  refine (Cert.KernelIdeal.Pay.k3_pay1_apply _ _ p q).trans (Finset.sum_congr rfl fun f _ => ?_)
  rw [zblk3 V c t p f, zzblk3 V c t q f]

theorem mem_blk3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v3).slice (win3_2.rect t)).set ↔ _
  rw [View.set_slice_whole, Rect.mem_set_unit]
  exact Iff.rfl

theorem idx_onto3 : ∀ q0 : Fin 25, ∃ t : Fin cfg3.N, win3_2.index t = ![q0.val, 0] :=
  (by decide +kernel : ∀ q0 : Fin 25, ∃ t : Fin grid3.N, win3_2.index t = ![q0.val, 0])

/-- Every row of the result lies in some point's block: row r in point r / 400's. -/
theorem cover3 (i : S10000x10000.Idx) : ∃ t : Fin cfg3.N, (cfg3.win 2).flush t = true ∧ i ∈ ((cfg3.win 2).blk t).view.set := by
  have hi0 : (i 0).val < 10000 := (i 0).isLt
  have hi1 : (i 1).val < 10000 := (i 1).isLt
  obtain ⟨t, ht⟩ := idx_onto3 ⟨(i 0).val / 400, by omega⟩
  have q0 : win3_2.index t (0 : Fin 2) = (i 0).val / 400 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 10000 ≤ (i 1).val ∧ (i 1).val < win3_2.index t (1 : Fin 2) * 10000 + 10000; omega

/-- The stage's result array after its 25 points: z · zᵀ of the z it found. -/
theorem final3 (c : Dev nD) : (dat3 V c).arrAt 2 cfg3.N = Cert.Spec.stage4 (V c main_v2) :=
  (dat3 V c).arrAt_eq_of_cover 2 _ (fun t _ => flushed3_eq V c t) cover3

end Cert.KernelIdeal.Hand

end
-- ==== Proof.KernelIdeal.Chain.lean ====
/-
  The four stages chained, at the extended reals. Each stage's result array is the next stage's input, found whole
  and unchanged where the next stage is entered, and the four arguments reach every stage as launched. So, stage by
  stage from the launch memory: s1 = x · W1; s2 = relu(adj · s1) · W2; z = relu(adj · s2); and the decoder's array is
  z · zᵀ. The run of the whole program therefore ends with its two results at these functions of the launch
  arguments, and the arguments unchanged.
-/
import proofs.«133263_g52742198395357_cont_9to1_m_1401_6_alg».proof.Proof.KernelIdeal.Run
import proofs.«133263_g52742198395357_cont_9to1_m_1401_6_alg».proof.Proof.KernelIdeal.Val0
import proofs.«133263_g52742198395357_cont_9to1_m_1401_6_alg».proof.Proof.KernelIdeal.Val1
import proofs.«133263_g52742198395357_cont_9to1_m_1401_6_alg».proof.Proof.KernelIdeal.Val2
import proofs.«133263_g52742198395357_cont_9to1_m_1401_6_alg».proof.Proof.KernelIdeal.Val3

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- An argument is found as launched at every stage's entry. -/
theorem V1_arg (c : Dev nD) (b : Ref sig .tc) (h0 : b ≠ main_v0) : V1 m ρ c b = m ((c.tc : Thread nD τ).loc b) :=
  (W1_rest m ρ c b h0).trans rfl
theorem V2_arg (c : Dev nD) (b : Ref sig .tc) (h1 : b ≠ main_v1) (h0 : b ≠ main_v0) : V2 m ρ c b = m ((c.tc : Thread nD τ).loc b) :=
  (W2_rest m ρ c b h1).trans (V1_arg m ρ c b h0)

/-- What the second stage finds as s1: x · W1 of the launch arguments. -/
theorem s1_final (c : Dev nD) :
    V1 m ρ c main_v0 = Cert.Spec.stage1 (m ((c.tc : Thread nD τ).loc main_arg0)) (m ((c.tc : Thread nD τ).loc main_arg2)) :=
  (W1_out m ρ c).trans (final0 (V0 m ρ) c)

/-- What the third stage finds as s2: relu(adj · s1) · W2. -/
theorem s2_final (c : Dev nD) :
    V2 m ρ c main_v1 = Cert.Spec.stage2 (m ((c.tc : Thread nD τ).loc main_arg1)) (Cert.Spec.stage1 (m ((c.tc : Thread nD τ).loc main_arg0)) (m ((c.tc : Thread nD τ).loc main_arg2))) (m ((c.tc : Thread nD τ).loc main_arg3)) := by
  refine (W2_out m ρ c).trans ((final1 (V1 m ρ) c).trans ?_)
  rw [s1_final m ρ c, V1_arg m ρ c main_arg1 (by decide), V1_arg m ρ c main_arg3 (by decide)]

/-- The third stage's result: z = relu(adj · s2), as a function of the launch arguments. -/
theorem z_final (c : Dev nD) :
    (dat2 (V2 m ρ) c).arrAt 3 cfg2.N = Cert.Spec.zOf (m ((c.tc : Thread nD τ).loc main_arg0)) (m ((c.tc : Thread nD τ).loc main_arg1)) (m ((c.tc : Thread nD τ).loc main_arg2)) (m ((c.tc : Thread nD τ).loc main_arg3)) := by
  refine (final2 (V2 m ρ) c).trans ?_
  rw [s2_final m ρ c, V2_arg m ρ c main_arg1 (by decide) (by decide)]
  rfl

/-- The last stage's result: z · zᵀ. -/
theorem abar_final (c : Dev nD) :
    (dat3 (V3 m ρ) c).arrAt 2 cfg3.N = Cert.Spec.abarOf (m ((c.tc : Thread nD τ).loc main_arg0)) (m ((c.tc : Thread nD τ).loc main_arg1)) (m ((c.tc : Thread nD τ).loc main_arg2)) (m ((c.tc : Thread nD τ).loc main_arg3)) := by
  refine (final3 (V3 m ρ) c).trans ?_
  rw [W3_out m ρ c, z_final m ρ c]
  rfl

/-- THE RUN, READ: every weakly fair execution terminates with the decoder's array at z · zᵀ, the embedding at z, both
    as functions of the launch arguments, and the arguments as launched. -/
theorem run_spec : θ_run defs (onTc (τ := τ) (main (F := Ideal))) ⟨m, fun _ => 0, ρ⟩ (fun r => ∀ c : Dev nD,
      r.2.mem ((c.tc : Thread nD τ).loc main_v3) = Cert.Spec.abarOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2) = Cert.Spec.zOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (abar_final m ρ c), (h c).2.1.trans (z_final m ρ c), (h c).2.2⟩)
    (run_out (F := Ideal) m ρ)

end Cert.KernelIdeal.Hand

end
-- ==== Proof.RefSide.lean ====
/-
  The reference program computes the specification.

  The reference is nine host operations on whole arrays: x · W1, adj · (that), relu, (that) · W2, adj · (that), relu, a
  transpose, and the product of z with its transpose. A generated module states the reference's run (each result
  buffer ends at the composed term of the arguments) and reads each operation at an index: a dot_general's entry is
  the sum over the contracted coordinate of the products of its operands' entries, a maximum is taken entry by entry,
  a broadcast scalar reads the scalar everywhere, a transpose reads the operand at the swapped index.

  Here those readings are chained stage by stage: each stage of the reference, as a function of the previous stage's
  array, IS the specification's stage — entry by entry, the index functions of the generated readings being the
  coordinate pairs the specification writes. Then the run of the reference is restated with the specification's two
  functions of the arguments in place of the composed terms.
-/
import proofs.«133263_g52742198395357_cont_9to1_m_1401_6_alg».proof.Proof.Gen.ReferenceIdeal.Read
import proofs.«133263_g52742198395357_cont_9to1_m_1401_6_alg».proof.Proof.Spec
import proofs.«133263_g52742198395357_cont_9to1_m_1401_6_alg».proof.Proof.LibPlainDot
import proofs.«133263_g52742198395357_cont_9to1_m_1401_6_alg».proof.Proof.LibIndexReads

noncomputable section

open scoped BigOperators

namespace Cert.RefSide

open Cert.ReferenceIdeal Cert.ReferenceIdeal.Gen Cert.ReferenceIdeal.Read
open Idealize.ShloMosaic Idealize.ShloMosaic.TcCoe Idealize.SL.Sem Idealize.ShloMosaic.ValueIdx

/-! ## The index functions of the generated readings, at an entry given by its coordinates

A plain product's entry (p, q) reads its left operand at (p, k) and its right operand at (k, q); the transpose's entry
(f, q) reads its operand at (q, f). Each equation compares two indices coordinate by coordinate. -/

theorem lidx_v0 (p : Fin 10000) (q : Fin 64) (k : Fin 128) : lidx_main_v0 (ix2 p q) k = ix2 p k :=
  funext fun a => Fin.ext (by match a with | ⟨0, _⟩ => rfl | ⟨1, _⟩ => rfl)
theorem ridx_v0 (p : Fin 10000) (q : Fin 64) (k : Fin 128) : ridx_main_v0 (ix2 p q) k = ix2 k q :=
  funext fun a => Fin.ext (by match a with | ⟨0, _⟩ => rfl | ⟨1, _⟩ => rfl)
theorem lidx_v1 (p : Fin 10000) (q : Fin 64) (k : Fin 10000) : lidx_main_v1 (ix2 p q) k = ix2 p k :=
  funext fun a => Fin.ext (by match a with | ⟨0, _⟩ => rfl | ⟨1, _⟩ => rfl)
theorem ridx_v1 (p : Fin 10000) (q : Fin 64) (k : Fin 10000) : ridx_main_v1 (ix2 p q) k = ix2 k q :=
  funext fun a => Fin.ext (by match a with | ⟨0, _⟩ => rfl | ⟨1, _⟩ => rfl)
theorem lidx_v3 (p : Fin 10000) (q : Fin 16) (k : Fin 64) : lidx_main_v3 (ix2 p q) k = ix2 p k :=
  funext fun a => Fin.ext (by match a with | ⟨0, _⟩ => rfl | ⟨1, _⟩ => rfl)
theorem ridx_v3 (p : Fin 10000) (q : Fin 16) (k : Fin 64) : ridx_main_v3 (ix2 p q) k = ix2 k q :=
  funext fun a => Fin.ext (by match a with | ⟨0, _⟩ => rfl | ⟨1, _⟩ => rfl)
theorem lidx_v4 (p : Fin 10000) (q : Fin 16) (k : Fin 10000) : lidx_main_v4 (ix2 p q) k = ix2 p k :=
  funext fun a => Fin.ext (by match a with | ⟨0, _⟩ => rfl | ⟨1, _⟩ => rfl)
theorem ridx_v4 (p : Fin 10000) (q : Fin 16) (k : Fin 10000) : ridx_main_v4 (ix2 p q) k = ix2 k q :=
  funext fun a => Fin.ext (by match a with | ⟨0, _⟩ => rfl | ⟨1, _⟩ => rfl)
theorem lidx_v7 (p q : Fin 10000) (f : Fin 16) : lidx_main_v7 (ix2 p q) f = ix2 p f :=
  funext fun a => Fin.ext (by match a with | ⟨0, _⟩ => rfl | ⟨1, _⟩ => rfl)
/-- The right operand of the last product is the transpose of z: its entry (f, q) is z's entry (q, f). -/
theorem tidx_v7 (p q : Fin 10000) (f : Fin 16) : idx_main_v6 (ridx_main_v7 (ix2 p q) f) = ix2 q f :=
  funext fun a => Fin.ext (by match a with | ⟨0, _⟩ => rfl | ⟨1, _⟩ => rfl)

/-! ## The reference's stages are the specification's -/

section Stages
variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64x16, .f32⟩ : BufTy).Contents (Elt Ideal))

/-- The first dot_general is s1 = x · W1. -/
theorem s1_eq : val_main_v0 (F := Ideal) x0 x2 = Cert.Spec.stage1 x0 x2 := by
  funext i
  obtain ⟨p, q, rfl⟩ : ∃ (p : Fin 10000) (q : Fin 64), i = ix2 p q := ⟨i 0, i 1, eq_ix2 i⟩
  rw [val_main_v0_apply]
  exact Finset.sum_congr rfl fun k _ => by rw [lidx_v0, ridx_v0]

/-- The second dot_general, the first relu and the third dot_general together are s2 = relu (adj · s1) · W2: the
    outer sum runs over the hidden features h, and the left factor at (p, h) is the maximum of the aggregate
    ∑ k, adj[p, k] · s1[k, h] with the broadcast zero word. -/
theorem s2_eq : val_main_v3 (F := Ideal) x0 x1 x2 x3 = Cert.Spec.stage2 x1 (val_main_v0 (F := Ideal) x0 x2) x3 := by
  funext i
  obtain ⟨p, q, rfl⟩ : ∃ (p : Fin 10000) (q : Fin 16), i = ix2 p q := ⟨i 0, i 1, eq_ix2 i⟩
  rw [val_main_v3_apply]
  refine Finset.sum_congr rfl fun h _ => ?_
  rw [lidx_v3, ridx_v3]
  refine congrArg (· * x3 (ix2 h q)) ?_
  rw [val_main_v2_apply, val_main_v1_apply, val_main_call0_v0_apply, val_main_call0_cst_apply]
  refine (Cert.Spec.max_zeroWord _).trans (congrArg Cert.Spec.relu ?_)
  exact Finset.sum_congr rfl fun k _ => by rw [lidx_v1, ridx_v1]

/-- The fourth dot_general and the second relu together are z = relu (adj · s2). -/
theorem z_eq : val_main_v5 (F := Ideal) x0 x1 x2 x3 = Cert.Spec.stage3 x1 (val_main_v3 (F := Ideal) x0 x1 x2 x3) := by
  funext i
  obtain ⟨p, q, rfl⟩ : ∃ (p : Fin 10000) (q : Fin 16), i = ix2 p q := ⟨i 0, i 1, eq_ix2 i⟩
  rw [val_main_v5_apply, val_main_v4_apply, val_main_call1_v0_apply, val_main_call1_cst_apply]
  refine (Cert.Spec.max_zeroWord _).trans (congrArg Cert.Spec.relu ?_)
  exact Finset.sum_congr rfl fun k _ => by rw [lidx_v4, ridx_v4]

/-- The transpose and the last dot_general together are ā = z · zᵀ: the right operand's entry (f, q) is z[q, f]. -/
theorem abar_eq : val_main_v7 (F := Ideal) x0 x1 x2 x3 = Cert.Spec.stage4 (val_main_v5 (F := Ideal) x0 x1 x2 x3) := by
  funext i
  obtain ⟨p, q, rfl⟩ : ∃ (p : Fin 10000) (q : Fin 10000), i = ix2 p q := ⟨i 0, i 1, eq_ix2 i⟩
  rw [val_main_v7_apply]
  refine Finset.sum_congr rfl fun f _ => ?_
  rw [val_main_v6_apply, lidx_v7, tidx_v7]

/-- The reference's second result is the specification's embedding of the four arguments. -/
theorem z_spec : val_main_v5 (F := Ideal) x0 x1 x2 x3 = Cert.Spec.zOf x0 x1 x2 x3 := by
  rw [z_eq, s2_eq, s1_eq]; rfl

/-- The reference's first result is the specification's reconstructed adjacency of the four arguments. -/
theorem abar_spec : val_main_v7 (F := Ideal) x0 x1 x2 x3 = Cert.Spec.abarOf x0 x1 x2 x3 := by
  rw [abar_eq, z_spec]; rfl

end Stages

/-! ## The run -/

/-- From any memory with zero counters every weakly fair execution of the reference terminates with its first result
    the specification's ā and its second the specification's z, of the four argument arrays as launched, and the
    arguments unchanged: the generated run, its two composed terms replaced by the stages above. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7)
            = Cert.Spec.abarOf (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_v5)
            = Cert.Spec.zOf (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c =>
      ⟨(h c).1.trans ((val_main_v7_eq _ _ _ _).trans (abar_spec _ _ _ _)),
       (h c).2.1.trans ((val_main_v5_eq _ _ _ _).trans (z_spec _ _ _ _)),
       (h c).2.2⟩)
    (Cert.ReferenceIdeal.Value.run (F := Ideal) m' g')

end Cert.RefSide

end
-- ==== Proof.lean ====
/-
  A graph auto-encoder's forward pass, kernel against reference. Both compute, from x, adj, W1, W2,
      s1 = x · W1,   s2 = relu(adj · s1) · W2,   z = relu(adj · s2),   a_bar = z · zᵀ,
  and return (a_bar, z). The kernel does it in four tiled pipelines — row blocks of x, then two passes streaming strips
  of adj (two strips per point, through two windows on the one array), then row blocks of z against the whole of z —
  and the reference in plain array operations. Over the extended reals every product on either side is the sum of
  the operands' products over the contracted index, in that index's own order, and relu is the maximum with zero; so
  the two sides are the same function of the arguments entry by entry, with no law of arithmetic beyond reading each
  operation at an entry, and the finiteness of the inputs is never used.
  The three frames: each program terminates from any launch memory without a fault and leaves its arguments as
  launched — for the kernel, at the machine words and at the extended reals alike, because no pipeline has an output
  window on an argument. The idealization rewrote no operation, so it preserves the kernel by the program's own text.
-/
import proofs.«133263_g52742198395357_cont_9to1_m_1401_6_alg».proof.Defs
import proofs.«133263_g52742198395357_cont_9to1_m_1401_6_alg».proof.Proof.Gen.Kernel
import proofs.«133263_g52742198395357_cont_9to1_m_1401_6_alg».proof.Proof.Gen.KernelIdeal
import proofs.«133263_g52742198395357_cont_9to1_m_1401_6_alg».proof.Proof.Gen.ReferenceIdeal
import proofs.«133263_g52742198395357_cont_9to1_m_1401_6_alg».proof.Proof.Gen.Pre_finite_inputs
import proofs.«133263_g52742198395357_cont_9to1_m_1401_6_alg».proof.Proof.Kernel.Run
import proofs.«133263_g52742198395357_cont_9to1_m_1401_6_alg».proof.Proof.KernelIdeal.Chain
import proofs.«133263_g52742198395357_cont_9to1_m_1401_6_alg».proof.Proof.RefSide
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run, the results dropped. -/
theorem frame_referenceIdeal : Cert.frame_ReferenceIdeal := fun m ρ _ =>
  (θ_run Cert.ReferenceIdeal.defs _ _).mono (fun _ h c => (h c).2.2) (Cert.RefSide.ref_run m ρ)

/-- The idealization rewrote nothing. -/
theorem preserves : Cert.preserves_Kernel_KernelIdeal := trivial

/-- From memories agreeing on the arguments, the idealized kernel and the idealized reference both end with
    a_bar = z · zᵀ and z = relu(adj · relu(adj · (x · W1)) · W2) of those arguments. -/
theorem algebraic : Cert.algebraic_KernelIdeal_ReferenceIdeal := by
  intro m ρ m' ρ' _ hagree
  refine ⟨fun c => Cert.Spec.abarOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.zOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run_spec m ρ, ?_⟩
  refine (θ_run Cert.ReferenceIdeal.defs _ _).mono (fun _ h c => ⟨?_, ?_, (h c).2.2⟩) (Cert.RefSide.ref_run m' ρ')
  · rw [(h c).1, (hagree c).1, (hagree c).2.1, (hagree c).2.2.1, (hagree c).2.2.2]
  · rw [(h c).2.1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
